-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v3) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x64 : Shape := ⟨3, ![16, 2048, 64]⟩
abbrev S_ : Shape := ⟨0, ![]⟩

class Facts : Prop where
  bcast_S_S16x2048x64 : S_.BroadcastsInDim S16x2048x64 (![] : Fin 0 → Fin S16x2048x64.rank)
  reducesTo_S16x2048x64_S_d0_1_2 : S16x2048x64.ReducesTo [0, 1, 2] S_
  h_S_ : 0 < S_.numel

variable [Facts]

def fn {F : FTy → Type} [FloatOps F] (main_arg0 : FVec F S16x2048x64 .f32) (main_arg1 : FVec F S16x2048x64 .f32) (main_arg2 : FVec F S16x2048x64 .f32) : IVec S_ 1 :=
  let main_v0 : FVec F S16x2048x64 .f32 := Host.absf main_arg0
  let main_cst : FVec F S_ .f32 := constant S_ .f32 0x7F800000#32
  let main_v1 : FVec F S16x2048x64 .f32 := broadcastInDim S16x2048x64 ![] bcast_S_S16x2048x64 main_cst
  let main_v2 : IVec S16x2048x64 1 := cmpf .olt main_v0 main_v1
  let main_c : IVec S_ 1 := constantI S_ 1 1#1
  let main_v3 : IVec S_ 1 := (fun x v => Host.reduce IntOp.andi x v reducesTo_S16x2048x64_S_d0_1_2 h_S_) main_v2 main_c
  let main_v4 : FVec F S16x2048x64 .f32 := Host.absf main_arg1
  let main_cst_0 : FVec F S_ .f32 := constant S_ .f32 0x7F800000#32
  let main_v5 : FVec F S16x2048x64 .f32 := broadcastInDim S16x2048x64 ![] bcast_S_S16x2048x64 main_cst_0
  let main_v6 : IVec S16x2048x64 1 := cmpf .olt main_v4 main_v5
  let main_c_1 : IVec S_ 1 := constantI S_ 1 1#1
  let main_v7 : IVec S_ 1 := (fun x v => Host.reduce IntOp.andi x v reducesTo_S16x2048x64_S_d0_1_2 h_S_) main_v6 main_c_1
  let main_v8 : IVec S_ 1 := andi main_v3 main_v7
  let main_v9 : FVec F S16x2048x64 .f32 := Host.absf main_arg2
  let main_cst_2 : FVec F S_ .f32 := constant S_ .f32 0x7F800000#32
  let main_v10 : FVec F S16x2048x64 .f32 := broadcastInDim S16x2048x64 ![] bcast_S_S16x2048x64 main_cst_2
  let main_v11 : IVec S16x2048x64 1 := cmpf .olt main_v9 main_v10
  let main_c_3 : IVec S_ 1 := constantI S_ 1 1#1
  let main_v12 : IVec S_ 1 := (fun x v => Host.reduce IntOp.andi x v reducesTo_S16x2048x64_S_d0_1_2 h_S_) main_v11 main_c_3
  let main_v13 : IVec S_ 1 := andi main_v8 main_v12
  main_v13
-- ==== Kernel.lean ====
abbrev S16x2048x64 : Shape := ⟨3, ![16, 2048, 64]⟩
abbrev S16x2048x2048 : Shape := ⟨3, ![16, 2048, 2048]⟩
abbrev S1x512x64 : Shape := ⟨3, ![1, 512, 64]⟩
abbrev S1x2048x64 : Shape := ⟨3, ![1, 2048, 64]⟩
abbrev S1x512x2048 : Shape := ⟨3, ![1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S2048x16x64 : Shape := ⟨3, ![2048, 16, 64]⟩
abbrev S2048x1024 : Shape := ⟨2, ![2048, 1024]⟩

abbrev nBuf : Space → Nat
  | .hbm => 8
  | .vmem => 12
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x64, .f32⟩
  | .hbm, ⟨4, _⟩ => ⟨S16x2048x2048, .f32⟩
  | .hbm, ⟨5, _⟩ => ⟨S16x2048x2048, .f32⟩
  | .hbm, ⟨6, _⟩ => ⟨S2048x16x64, .f32⟩
  | .hbm, ⟨7, _⟩ => ⟨S2048x1024, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x512x64, .f32⟩
  | .local _ .vmem, ⟨7, _⟩ => ⟨S1x512x64, .f32⟩
  | .local _ .vmem, ⟨8, _⟩ => ⟨S1x512x2048, .f32⟩
  | .local _ .vmem, ⟨9, _⟩ => ⟨S1x512x2048, .f32⟩
  | .local _ .vmem, ⟨10, _⟩ => ⟨S1x512x2048, .f32⟩
  | .local _ .vmem, ⟨11, _⟩ => ⟨S1x512x2048, .f32⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S512x2048_S512 : S512x2048.Reduces [1] S512
  shapeCasts_S512_S512x1 : S512.ShapeCasts S512x1
  broadcasts_S512x1_S512x2048 : S512x1.Broadcasts S512x2048
  shapeCasts_S512x64_S1x512x64 : S512x64.ShapeCasts S1x512x64
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  transposes_S16x2048x64_S2048x16x64_1_0_2 : S16x2048x64.Transposes [1, 0, 2] S2048x16x64
  shapeCasts_S2048x16x64_S2048x1024 : S2048x16x64.ShapeCasts S2048x1024
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S16x2048x64.size a
  hwx0_0 : ∀ i : grid0.Coords, EltTy.bits .f32 = 32 ∨ (Rect.block (s := S16x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S16x2048x64.size a
  hwx0_1 : ∀ i : grid0.Coords, EltTy.bits .f32 = 32 ∨ (Rect.block (s := S16x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S16x2048x64.size a
  hwx0_2 : ∀ i : grid0.Coords, EltTy.bits .f32 = 32 ∨ (Rect.block (s := S16x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S16x2048x64.size a
  hwx0_3 : ∀ i : grid0.Coords, EltTy.bits .f32 = 32 ∨ (Rect.block (s := S16x2048x64) S1x512x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S16x2048x2048.size a
  hwx0_4 : ∀ i : grid0.Coords, EltTy.bits .f32 = 32 ∨ (Rect.block (s := S16x2048x2048) S1x512x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x2048.size a ≤ S16x2048x2048.size a
  hwx0_5 : ∀ i : grid0.Coords, EltTy.bits .f32 = 32 ∨ (Rect.block (s := S16x2048x2048) S1x512x2048.size (cc0_transform_5 i) (hinb0_5 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x512x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x512x2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x2048x64 : Shape := ⟨3, ![16, 2048, 64]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩
abbrev S2048x16x64 : Shape := ⟨3, ![2048, 16, 64]⟩
abbrev S2048x1024 : Shape := ⟨2, ![2048, 1024]⟩

abbrev nBuf : Space → Nat
  | .hbm => 26
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x2048, .f32⟩
  | .hbm, ⟨4, _⟩ => ⟨S_, .f32⟩
  | .hbm, ⟨5, _⟩ => ⟨S16x2048x2048, .f32⟩
  | .hbm, ⟨6, _⟩ => ⟨S16x2048x2048, .f32⟩
  | .hbm, ⟨7, _⟩ => ⟨S_, .f32⟩
  | .hbm, ⟨8, _⟩ => ⟨S16x2048, .f32⟩
  | .hbm, ⟨9, _⟩ => ⟨S_, .f32⟩
  | .hbm, ⟨10, _⟩ => ⟨S16x2048, .f32⟩
  | .hbm, ⟨11, _⟩ => ⟨S16x2048, .f32⟩
  | .hbm, ⟨12, _⟩ => ⟨S16x2048x1, .f32⟩
  | .hbm, ⟨13, _⟩ => ⟨S16x2048x2048, .f32⟩
  | .hbm, ⟨14, _⟩ => ⟨S16x2048x2048, .f32⟩
  | .hbm, ⟨15, _⟩ => ⟨S16x2048x2048, .f32⟩
  | .hbm, ⟨16, _⟩ => ⟨S_, .f32⟩
  | .hbm, ⟨17, _⟩ => ⟨S16x2048, .f32⟩
  | .hbm, ⟨18, _⟩ => ⟨S16x2048x1, .f32⟩
  | .hbm, ⟨19, _⟩ => ⟨S16x2048x1, .f32⟩
  | .hbm, ⟨20, _⟩ => ⟨S16x2048x2048, .f32⟩
  | .hbm, ⟨21, _⟩ => ⟨S16x2048x2048, .f32⟩
  | .hbm, ⟨22, _⟩ => ⟨S16x2048x2048, .f32⟩
  | .hbm, ⟨23, _⟩ => ⟨S16x2048x64, .f32⟩
  | .hbm, ⟨24, _⟩ => ⟨S2048x16x64, .f32⟩
  | .hbm, ⟨25, _⟩ => ⟨S2048x1024, .f32⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_call0_cst_0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_cst_1 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  transposes_S16x2048x64_S2048x16x64_1_0_2 : S16x2048x64.Transposes [1, 0, 2] S2048x16x64
  shapeCasts_S2048x16x64_S2048x1024 : S2048x16x64.ShapeCasts S2048x1024
  dot_S16x2048x64_S16x2048x64_S16x2048x2048_2_2_1_1_0_0_wf : DotDims.WF S16x2048x64 S16x2048x64 S16x2048x2048 [2] [2] [1] [1] [0] [0]
  dot_S16x2048x2048_S16x2048x64_S16x2048x64_2_1_1_2_0_0_wf : DotDims.WF S16x2048x2048 S16x2048x64 S16x2048x64 [2] [1] [1] [2] [0] [0]

variable [Facts₀]

def dot_S16x2048x64_S16x2048x64_S16x2048x2048_2_2_1_1_0_0 : DotDims S16x2048x64 S16x2048x64 S16x2048x2048 where
  lhsContracting := [2]
  rhsContracting := [2]
  lhsNonContracting := [1]
  rhsNonContracting := [1]
  lhsBatch := [0]
  rhsBatch := [0]
  wf := dot_S16x2048x64_S16x2048x64_S16x2048x2048_2_2_1_1_0_0_wf
def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf

class Facts : Prop extends Facts₀ where

variable [Facts]
-- ==== Proof.Softmax.lean ====
/-
  The softmax of one row of scores, and its logarithm, over the extended reals.

  For a row `x` of `n` extended reals: the row's maximum `rowMax x` (the fold of `max` from the bottom element), the
  shifted scores `x j - rowMax x`, their exponentials, the exponentials' sum, the log-softmax
  `(x j - rowMax x) - log (sum)` and the softmax in the form `exp (x j - rowMax x) * (1 / sum)`.

  The law joining the two forms of the softmax, `exp (logSoft x j) = soft x j`, holds when every score is a real
  number and the row is not empty: then the maximum is one of the scores, hence real; every shifted score is real, its
  exponential a positive real; the sum is a positive real `S`, `log S` is real, and on the reals
  `exp (a - log S) = exp a / S = exp a * (1 / S)`. (At an infinite score the two forms differ, which is why the
  hypothesis is there.)

  Also here: three f32 words as extended reals — the word of minus infinity is the bottom element, `0x3E000000` is
  one eighth and `0x41000000` is eight — and the quotient by eight as the product with one eighth.
-/
import Idealize.ShloMosaic.PureOps.Ideal.Laws
import Mathlib.Data.Finset.Fold

noncomputable section

open scoped BigOperators

namespace Cert.Softmax

open Idealize.ShloMosaic

variable {n : ℕ}

/-- The largest score of the row (the bottom element for an empty row). -/
def rowMax (x : Fin n → EReal) : EReal := (Finset.univ : Finset (Fin n)).fold max ⊥ x

/-- A score less the row's maximum. -/
def shift (x : Fin n → EReal) (j : Fin n) : EReal := x j - rowMax x

/-- The exponential of a shifted score. -/
def expw (x : Fin n → EReal) (j : Fin n) : EReal := Ideal.exp (shift x j)

/-- The sum of the row's exponentials. -/
def rowSum (x : Fin n → EReal) : EReal := ∑ j : Fin n, expw x j

/-- The log-softmax: the shifted score less the logarithm of the sum. -/
def logSoft (x : Fin n → EReal) (j : Fin n) : EReal := shift x j - Ideal.log (rowSum x)

/-- The softmax as the exponential times the reciprocal of the sum. -/
def soft (x : Fin n → EReal) (j : Fin n) : EReal := expw x j * Ideal.div 1 (rowSum x)

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of a non-empty row of reals is a real. -/
theorem rowMax_real [NeZero n] (r : Fin n → ℝ) : ∃ M : ℝ, rowMax (fun j => (r j : EReal)) = (M : EReal) := by
  have hbot : rowMax (fun j => (r j : EReal)) ≠ ⊥ := by
    have h : ((r 0 : ℝ) : EReal) ≤ rowMax (fun j => (r j : EReal)) :=
      (Finset.le_fold_max _).mpr (Or.inr ⟨0, Finset.mem_univ _, le_refl _⟩)
    intro e
    rw [e] at h
    exact absurd (le_bot_iff.mp h) (EReal.coe_ne_bot _)
  have htop : rowMax (fun j => (r j : EReal)) ≠ ⊤ :=
    ne_of_lt ((Finset.fold_max_lt _).mpr ⟨bot_lt_top, fun j _ => EReal.coe_lt_top _⟩)
  exact ⟨(rowMax (fun j => (r j : EReal))).toReal, (EReal.coe_toReal htop hbot).symm⟩

/-- THE LAW between the two forms of the softmax, for a non-empty row of real scores: the exponential of the
    log-softmax is the exponential of the shifted score times the reciprocal of the sum. -/
theorem exp_logSoft_eq_soft [NeZero n] (x : Fin n → EReal) (hx : ∀ j, ∃ r : ℝ, x j = (r : EReal)) (j : Fin n) :
    Ideal.exp (logSoft x j) = soft x j := by
  choose r hr using hx
  obtain rfl : x = fun j => (r j : EReal) := funext hr
  obtain ⟨M, hM⟩ := rowMax_real r
  have hsh : ∀ k, shift (fun j => (r j : EReal)) k = ((r k - M : ℝ) : EReal) := fun k => by
    unfold shift; rw [hM, EReal.coe_sub]
  have hex : ∀ k, expw (fun j => (r j : EReal)) k = ((Real.exp (r k - M) : ℝ) : EReal) := fun k => by
    unfold expw; rw [hsh]; rfl
  have hS : rowSum (fun j => (r j : EReal)) = ((∑ k : Fin n, Real.exp (r k - M) : ℝ) : EReal) := by
    unfold rowSum; rw [coe_sum]; exact Finset.sum_congr rfl fun k _ => hex k
  have hpos : 0 < ∑ k : Fin n, Real.exp (r k - M) :=
    Finset.sum_pos (fun k _ => Real.exp_pos _) ⟨0, Finset.mem_univ _⟩
  unfold logSoft soft
  rw [hS, hsh, hex, Ideal.div_coe (ne_of_gt hpos), one_mul]
  show Ideal.exp (((r j - M : ℝ) : EReal) - (if (∑ k : Fin n, Real.exp (r k - M)) ≤ 0 then ⊥ else ((Real.log (∑ k : Fin n, Real.exp (r k - M)) : ℝ) : EReal))) = _
  rw [if_neg (not_le.mpr hpos), ← EReal.coe_sub, ← EReal.coe_mul]
  show ((Real.exp (r j - M - Real.log (∑ k : Fin n, Real.exp (r k - M))) : ℝ) : EReal) = _
  rw [Real.exp_sub, Real.exp_log hpos, div_eq_mul_one_div]

/-! ## Three words -/

/-- The f32 word of minus infinity is the bottom element. -/
theorem ofBits_neg_inf : Ideal.ofBits .f32 0xFF800000#32 = ⊥ := by simp [Ideal.ofBits, Ideal.ieee]

/-- The f32 word `0x3E000000` is one eighth. -/
theorem ofBits_eighth : Ideal.ofBits .f32 0x3E000000#32 = (((1 : ℝ) / 8 : ℝ) : EReal) := by
  simp [Ideal.ofBits, Ideal.ieee, -EReal.coe_mul]; norm_num

/-- The f32 word `0x41000000` is eight. -/
theorem ofBits_eight : Ideal.ofBits .f32 0x41000000#32 = ((8 : ℝ) : EReal) := by
  simp [Ideal.ofBits, Ideal.ieee, -EReal.coe_mul]; norm_num

/-- A quotient by the word of eight is the product with the word of one eighth, on every extended real. -/
theorem div_eight (s : EReal) : Ideal.div s (Ideal.ofBits .f32 0x41000000#32) = s * Ideal.ofBits .f32 0x3E000000#32 := by
  rw [ofBits_eight, ofBits_eighth]
  exact Ideal.div_coe (by norm_num) s

/-- The maximum with the bottom element in front changes nothing. -/
theorem max_bot_rowMax (x : Fin n → EReal) : max ⊥ (rowMax x) = rowMax x := max_eq_right bot_le

end Cert.Softmax

end
-- ==== Proof.LibMatmulRows.lean ====
/-
  A matrix product that contracts the two operands' LAST axes, read at one entry.

  For dimension numbers that contract the left operand's second axis with the right operand's second axis — the
  left operand [a, n], the right operand [b, n], the result [a, b], no batch axes: `x @ W.T` without the transpose
  ever being formed — the entry (p, q) of the product is the sum over k of left (p, k) times right (q, k): row p of
  the left operand against row q of the right one. The dimension numbers enter only through four facts about where
  the two operand indices sit (the left one reads the result's row and the contraction position, the right one the
  result's column and the contraction position); a caller proves those four facts for its own record, each by
  unfolding the record's two membership tests.

  `contr_sum_rows`     the contraction's sum re-indexed by the one contracted coordinate;
  `matmul_zero_rows`   a `tpu.matmul` into the zero accumulator at the ideal instance;
  `dotGeneral_rows`    the host's `dot_general` at the ideal instance.
-/
import Idealize.ShloMosaic.PureOps.Ideal.Laws
import Idealize.ShloMosaic.Lib.ValueIdx

noncomputable section

open scoped BigOperators

namespace Idealize.ShloMosaic.MatmulRows

open Idealize.ShloMosaic Idealize.ShloMosaic.ValueIdx

variable {a n b : ℕ}

/-- The sum over the contraction positions of a one-axis contraction of the operands' last axes is the sum over the
    contracted coordinate `k : Fin n`, the left operand read at `(p, k)` and the right one at `(q, k)`. -/
theorem contr_sum_rows (D : DotDims ⟨2, ![a, n]⟩ ⟨2, ![b, n]⟩ ⟨2, ![a, b]⟩) (hr : D.contr.rank = 1)
    (hs : D.contr.size ⟨0, by omega⟩ = n)
    (hl0 : ∀ i c, (D.lhsIdx i c (0 : Fin 2)).val = (i (0 : Fin 2)).val)
    (hl1 : ∀ i c, (D.lhsIdx i c (1 : Fin 2)).val = (c ⟨0, by omega⟩).val)
    (hr0 : ∀ i c, (D.rhsIdx i c (0 : Fin 2)).val = (i (1 : Fin 2)).val)
    (hr1 : ∀ i c, (D.rhsIdx i c (1 : Fin 2)).val = (c ⟨0, by omega⟩).val)
    (l : (⟨2, ![a, n]⟩ : Shape).Idx → EReal) (r : (⟨2, ![b, n]⟩ : Shape).Idx → EReal) (p : Fin a) (q : Fin b) :
    ∑ c : D.contr.Idx, l (D.lhsIdx (ix2 p q) c) * r (D.rhsIdx (ix2 p q) c) = ∑ k : Fin n, l (ix2 p k) * r (ix2 q k) := by
  rw [← Equiv.sum_comp (contrEquiv1 D n hr hs).symm]
  refine Finset.sum_congr rfl fun k _ => ?_
  have hk := contrEquiv1_symm_val D n hr hs k
  have el : D.lhsIdx (ix2 p q) ((contrEquiv1 D n hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D n hr hs).symm k) = ix2 q k := funext fun ax => Fin.ext (by
    match ax with
    | ⟨0, _⟩ => exact hr0 _ _
    | ⟨1, _⟩ => exact (hr1 _ _).trans hk)
  rw [el, er]

/-- A `tpu.matmul` of an [a, n] by a [b, n] operand into the zero accumulator, at the ideal instance, read at
    `(p, q)`: the sum over `k` of left `(p, k)` times right `(q, k)`. -/
theorem matmul_zero_rows {φ₁ φ₂ : FTy} (D : DotDims ⟨2, ![a, n]⟩ ⟨2, ![b, n]⟩ ⟨2, ![a, b]⟩) (hr : D.contr.rank = 1)
    (hs : D.contr.size ⟨0, by omega⟩ = n)
    (hl0 : ∀ i c, (D.lhsIdx i c (0 : Fin 2)).val = (i (0 : Fin 2)).val)
    (hl1 : ∀ i c, (D.lhsIdx i c (1 : Fin 2)).val = (c ⟨0, by omega⟩).val)
    (hr0 : ∀ i c, (D.rhsIdx i c (0 : Fin 2)).val = (i (1 : Fin 2)).val)
    (hr1 : ∀ i c, (D.rhsIdx i c (1 : Fin 2)).val = (c ⟨0, by omega⟩).val)
    (prec : Option ContractPrecision) (l : FVec Ideal ⟨2, ![a, n]⟩ φ₁) (r : FVec Ideal ⟨2, ![b, n]⟩ φ₂)
    (p : Fin a) (q : Fin b) :
    matmul D prec l r (constant ⟨2, ![a, b]⟩ .f32 0x00000000#32) (ix2 p q) = ∑ k : Fin n, l (ix2 p k) * r (ix2 q k) :=
  (Ideal.matmul_constant_zero_apply D prec l r (ix2 p q)).trans (contr_sum_rows D hr hs hl0 hl1 hr0 hr1 l r p q)

/-- The host's `dot_general` of an [a, n] by a [b, n] operand, at the ideal instance, read at `(p, q)`: the same sum. -/
theorem dotGeneral_rows {φ₁ φ₂ : FTy} (D : DotDims ⟨2, ![a, n]⟩ ⟨2, ![b, n]⟩ ⟨2, ![a, b]⟩) (hr : D.contr.rank = 1)
    (hs : D.contr.size ⟨0, by omega⟩ = n)
    (hl0 : ∀ i c, (D.lhsIdx i c (0 : Fin 2)).val = (i (0 : Fin 2)).val)
    (hl1 : ∀ i c, (D.lhsIdx i c (1 : Fin 2)).val = (c ⟨0, by omega⟩).val)
    (hr0 : ∀ i c, (D.rhsIdx i c (0 : Fin 2)).val = (i (1 : Fin 2)).val)
    (hr1 : ∀ i c, (D.rhsIdx i c (1 : Fin 2)).val = (c ⟨0, by omega⟩).val)
    (prec : Option ContractPrecision) (l : FVec Ideal ⟨2, ![a, n]⟩ φ₁) (r : FVec Ideal ⟨2, ![b, n]⟩ φ₂)
    (p : Fin a) (q : Fin b) :
    Host.dotGeneral D prec l r (ix2 p q) = ∑ k : Fin n, l (ix2 p k) * r (ix2 q k) :=
  (Ideal.dotGeneral_apply D prec .single l r (ix2 p q)).trans (contr_sum_rows D hr hs hl0 hl1 hr0 hr1 l r p q)

end Idealize.ShloMosaic.MatmulRows

end
-- ==== Proof.LibMatmulAt.lean ====
/-
  A matrix product with one contracted axis, read at one entry.

  For dimension numbers that contract the left operand's second axis with the right operand's first — the left
  operand [a, n], the right operand [n, b], the result [a, b], no batch axes — the entry (p, q) of the product is
  the sum over k of left (p, k) times right (k, q). The dimension numbers enter only through four facts about where
  the two operand indices sit (the left one reads the result's row and the contraction position, the right one the
  contraction position and the result's column); a caller proves those four facts for its own record, each by unfolding
  the record's two membership tests.

  `contr_sum_ix2`      the contraction's sum re-indexed by the one contracted coordinate;
  `matmul_zero_ix2`    a `tpu.matmul` into the zero accumulator at the ideal instance;
  `dotGeneral_ix2`     the host's `dot_general` at the ideal instance.
-/
import Idealize.ShloMosaic.PureOps.Ideal.Laws
import Idealize.ShloMosaic.Lib.ValueIdx

noncomputable section

open scoped BigOperators

namespace Idealize.ShloMosaic.MatmulAt

open Idealize.ShloMosaic Idealize.ShloMosaic.ValueIdx

variable {a n b : ℕ}

/-- The sum over the contraction positions of a one-axis contraction is the sum over the contracted coordinate
    `k : Fin n`, the left operand read at `(p, k)` and the right one at `(k, q)`. -/
theorem contr_sum_ix2 (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (l : (⟨2, ![a, n]⟩ : Shape).Idx → EReal) (r : (⟨2, ![n, b]⟩ : Shape).Idx → EReal) (p : Fin a) (q : Fin b) :
    ∑ k : D.contr.Idx, l (D.lhsIdx (ix2 p q) k) * r (D.rhsIdx (ix2 p q) k) = ∑ k : Fin n, l (ix2 p k) * r (ix2 k q) := by
  rw [← Equiv.sum_comp (contrEquiv1 D n hr hs).symm]
  refine Finset.sum_congr rfl fun k _ => ?_
  have hk := contrEquiv1_symm_val D n hr hs k
  have el : D.lhsIdx (ix2 p q) ((contrEquiv1 D n hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D n hr hs).symm k) = ix2 k q := funext fun ax => Fin.ext (by
    match ax with
    | ⟨0, _⟩ => exact (hr0 _ _).trans hk
    | ⟨1, _⟩ => exact hr1 _ _)
  rw [el, er]

/-- A `tpu.matmul` of an [a, n] by an [n, b] operand into the zero accumulator, at the ideal instance, read at
    `(p, q)`: the sum over `k` of left `(p, k)` times right `(k, q)`. -/
theorem matmul_zero_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    matmul D prec l r (constant ⟨2, ![a, b]⟩ .f32 0x00000000#32) (ix2 p q) = ∑ k : Fin n, l (ix2 p k) * r (ix2 k q) :=
  (Ideal.matmul_constant_zero_apply D prec l r (ix2 p q)).trans (contr_sum_ix2 D hr hs hl0 hl1 hr0 hr1 l r p q)

/-- The host's `dot_general` of an [a, n] by an [n, b] operand, at the ideal instance, read at `(p, q)`: the same sum. -/
theorem dotGeneral_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    Host.dotGeneral D prec l r (ix2 p q) = ∑ k : Fin n, l (ix2 p k) * r (ix2 k q) :=
  (Ideal.dotGeneral_apply D prec .single l r (ix2 p q)).trans (contr_sum_ix2 D hr hs hl0 hl1 hr0 hr1 l r p q)

end Idealize.ShloMosaic.MatmulAt

end
-- ==== Proof.LibAxisFold.lean ====
/-
  Reductions of a matrix along one axis, read at an index.

  At the ideal instance a float is an extended real and a reduction is the exact fold in any order. For an `[a, b]`
  matrix: the sum of row `p` (a kernel's `vector.multi_reduction <add>` over axis 1) and of column `q` (over axis 0)
  are the sums of that row's, that column's, entries; the smallest entry of row `p` (`<minimumf>` over axis 1) and of
  column `q` (over axis 0) are the fold of `min` from the value of the word of `+∞` over those entries. The index facts
  under them: over row `p` the index with column `k` put back is `(p, k)`, over column `q` the index with row `k` put
  back is `(k, q)`. Each reduction's accumulator is the word a program writes for it (the zero word, the word of `+∞`),
  and the hypothesis about it is the reflexive equation of that word.
-/
import Idealize.ShloMosaic.Lib.IdealHost

namespace Cert.LibAxisFold

open Idealize.ShloMosaic Idealize.ShloMosaic.ValueIdx

variable {a b : ℕ}

/-- Over row `p` of an `[a, b]` array, the index whose dropped (column) coordinate is `k` is `(p, k)`. -/
theorem lift_row (h : (⟨2, ![a, b]⟩ : Shape).Reduces [1] ⟨1, ![a]⟩) (p : Fin a) (k : Fin b) :
    h.lift (ix1 p) k = ix2 p k := by
  funext c
  match c with
  | ⟨0, _⟩ => exact Fin.ext rfl
  | ⟨1, _⟩ => exact Fin.ext rfl

/-- Over column `q` of an `[a, b]` array, the index whose dropped (row) coordinate is `k` is `(k, q)`. -/
theorem lift_col (h : (⟨2, ![a, b]⟩ : Shape).Reduces [0] ⟨1, ![b]⟩) (q : Fin b) (k : Fin a) :
    h.lift (ix1 q) k = ix2 k q := by
  funext c
  match c with
  | ⟨0, _⟩ => exact Fin.ext rfl
  | ⟨1, _⟩ => exact Fin.ext rfl

/-- A kernel's f32 minimum along the columns started from the word of `+∞`, read at row `p`: the fold of `min` from
    that word's value over the row's entries. -/
theorem laneMin_row (v : FVec Ideal ⟨2, ![a, b]⟩ .f32) (h : (⟨2, ![a, b]⟩ : Shape).Reduces [1] ⟨1, ![a]⟩)
    (hφ : FKind.Formats .f32) (hacc : (0x7F800000#32 : BitVec 32) = 0x7F800000#32) (p : Fin a) :
    multiReduction .minimumf [1] ⟨1, ![a]⟩ v 0x7F800000#32 h hφ hacc (ix1 p)
      = (Finset.univ : Finset (Fin b)).fold min (Ideal.ofBits .f32 0x7F800000#32) fun k => v (ix2 p k) := by
  refine (multiReduction_minimumf_eq_fold v 0x7F800000#32 h hφ hacc (ix1 p)).trans ?_
  refine (h.fold_filter_drop_single _ _ v (ix1 p)).trans ?_
  exact congrArg (fun f => Finset.fold min (Ideal.ofBits .f32 0x7F800000#32) f (Finset.univ : Finset (Fin b)))
    (funext fun k => congrArg v (lift_row h p k))

/-- A kernel's f32 minimum down the rows started from the word of `+∞`, read at column `q`: the fold of `min` from
    that word's value over the column's entries. -/
theorem sublaneMin_col (v : FVec Ideal ⟨2, ![a, b]⟩ .f32) (h : (⟨2, ![a, b]⟩ : Shape).Reduces [0] ⟨1, ![b]⟩)
    (hφ : FKind.Formats .f32) (hacc : (0x7F800000#32 : BitVec 32) = 0x7F800000#32) (q : Fin b) :
    multiReduction .minimumf [0] ⟨1, ![b]⟩ v 0x7F800000#32 h hφ hacc (ix1 q)
      = (Finset.univ : Finset (Fin a)).fold min (Ideal.ofBits .f32 0x7F800000#32) fun k => v (ix2 k q) := by
  refine (multiReduction_minimumf_eq_fold v 0x7F800000#32 h hφ hacc (ix1 q)).trans ?_
  refine (h.fold_filter_drop_single _ _ v (ix1 q)).trans ?_
  exact congrArg (fun f => Finset.fold min (Ideal.ofBits .f32 0x7F800000#32) f (Finset.univ : Finset (Fin a)))
    (funext fun k => congrArg v (lift_col h q k))

/-- A kernel's f32 sum along the columns started from the zero word, read at row `p`: the sum of the row's entries. -/
theorem laneSum_row (v : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ v 0x00000000#32 h hφ hacc (ix1 p) = ∑ k : Fin b, v (ix2 p k) :=
  (Ideal.multiReduction_add_single v 0x00000000#32 h hφ hacc (ix1 p)).trans
    (Finset.sum_congr rfl fun k _ => congrArg v (lift_row h p k))

/-- A kernel's f32 sum down the rows started from the zero word, read at column `q`: the sum of the column's entries. -/
theorem sublaneSum_col (v : FVec Ideal ⟨2, ![a, b]⟩ .f32) (h : (⟨2, ![a, b]⟩ : Shape).Reduces [0] ⟨1, ![b]⟩)
    (hφ : FKind.Formats .f32) (hacc : (0x00000000#32 : BitVec 32) = 0x00000000#32) (q : Fin b) :
    multiReduction .add [0] ⟨1, ![b]⟩ v 0x00000000#32 h hφ hacc (ix1 q) = ∑ k : Fin a, v (ix2 k q) :=
  (Ideal.multiReduction_add_single v 0x00000000#32 h hφ hacc (ix1 q)).trans
    (Finset.sum_congr rfl fun k _ => congrArg v (lift_col h q k))

end Cert.LibAxisFold
-- ==== Proof.LibRowMax.lean ====
/-
  The largest entry along the last axis, read at an index.

  At the ideal instance a float is an extended real and a maximum is the exact fold of `max` in any order. For an
  `[a, b]` matrix, a kernel's `vector.multi_reduction <maximumf>` over axis 1 started from the word of `-∞`, read at row
  `p`, is the fold of `max` from that word's value over the row's entries (`laneMax_row`). For an `[a, b, c]` array,
  the host's `reduce` with a `maximum` body over axis 2, read at `(p, q)`, is the fold of `max` from the initial value
  over the entries `(p, q, k)` (`hostMax_last3`); `lift_last3` is the index fact under it: over `(p, q)` the index
  with the dropped last coordinate `k` put back is `(p, q, k)`.
-/
import Idealize.ShloMosaic.Lib.IdealHost

namespace Cert.LibRowMax

open Idealize.ShloMosaic Idealize.ShloMosaic.ValueIdx

variable {a b c : ℕ}

/-- Over row `p` of an `[a, b]` array, the index whose dropped (column) coordinate is `k` is `(p, k)`. -/
theorem lift_row (h : (⟨2, ![a, b]⟩ : Shape).Reduces [1] ⟨1, ![a]⟩) (p : Fin a) (k : Fin b) :
    h.lift (ix1 p) k = ix2 p k := by
  funext d
  match d with
  | ⟨0, _⟩ => exact Fin.ext rfl
  | ⟨1, _⟩ => exact Fin.ext rfl

/-- A kernel's f32 maximum along the columns started from the word of `-∞`, read at row `p`: the fold of `max` from
    that word's value over the row's entries. -/
theorem laneMax_row (v : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (p : Fin a) :
    multiReduction .maximumf [1] ⟨1, ![a]⟩ v 0xFF800000#32 h hφ hacc (ix1 p)
      = (Finset.univ : Finset (Fin b)).fold max (Ideal.ofBits .f32 0xFF800000#32) fun k => v (ix2 p k) := by
  refine (multiReduction_maximumf_eq_fold v 0xFF800000#32 h hφ hacc (ix1 p)).trans ?_
  refine (h.fold_filter_drop_single _ _ v (ix1 p)).trans ?_
  exact congrArg (fun f => Finset.fold max (Ideal.ofBits .f32 0xFF800000#32) f (Finset.univ : Finset (Fin b)))
    (funext fun k => congrArg v (lift_row h p k))

/-- Over `(p, q)` of an `[a, b, c]` array reduced along its last axis, the index whose dropped coordinate is `k`
    is `(p, q, k)`. -/
theorem lift_last3 (h : (⟨3, ![a, b, c]⟩ : Shape).Reduces [2] ⟨2, ![a, b]⟩) (p : Fin a) (q : Fin b) (k : Fin c) :
    h.lift (ix2 p q) k = ix3 p q k := by
  funext d
  match d with
  | ⟨0, _⟩ => exact Fin.ext rfl
  | ⟨1, _⟩ => exact Fin.ext rfl
  | ⟨2, _⟩ => exact Fin.ext rfl

/-- The host's `reduce` with a `maximum` body along the last axis of an `[a, b, c]` array, read at `(p, q)`: the
    fold of `max` from the initial value over the entries `(p, q, k)`. -/
theorem hostMax_last3 {u : Shape} (x : FVec Ideal ⟨3, ![a, b, c]⟩ .f32) (init : FVec Ideal u .f32)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (q : Fin b) :
    Host.reduce (FloatOps.maximumf (F := Ideal) (φ := .f32)) x init h' hu (ix2 p q)
      = (Finset.univ : Finset (Fin c)).fold max (init (Shape.Idx.first hu)) fun k => x (ix3 p q k) := by
  refine (Host.reduce_eq_fold_single (FloatOps.maximumf (F := Ideal) (φ := .f32)) x init h' h hu (ix2 p q)).trans ?_
  exact congrArg (fun f => Finset.fold max (init (Shape.Idx.first hu)) f (Finset.univ : Finset (Fin c)))
    (funext fun k => congrArg x (lift_last3 h p q k))

end Cert.LibRowMax
-- ==== Proof.LibColBroadcast.lean ====
/-
  One column broadcast over many: the companion of the library's row form `broadcastTo_1b_ab_apply`.
-/
import Idealize.ShloMosaic.Lib.Pipeline.Value
import Idealize.ShloMosaic.Lib.ValueIdx

namespace Cert.LibColBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColBroadcast
-- ==== Proof.LibColumnCast.lean ====
/-
  A vector stood up as one column: the companion of the library's `shapeCast_a_1a_apply` (a vector laid down as one row).
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`:
    row-major, position `i · 1 + u` of the column is position `i` of the vector. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.Block.lean ====
/-
  What the kernel body computes from its three input blocks, entry by entry, at the ideal instance.

  The body holds a `[1, 512, 64]` block of `q` (512 query positions of one head) and the head's whole `[1, 2048, 64]`
  blocks of `k` and `v`. Written `krow x0 x1 p` for the row of scores of query position `p` of the block against
  the 2048 key positions — `(∑ d, x0 (0, p, d) · x1 (0, j, d)) · 1/8`, the product that contracts the operands' last
  axes —, the body's values are: the shifted scores (`shift`: the score less the row's maximum), their exponentials,
  the rows' sums, the log-weights `logSoft`, the weights `soft` (exponential times the reciprocal of the sum) and
  the context `∑ j, soft j · x2 (0, j, d)`. The three stores write the context, the weights and the log-weights with
  a unit axis in front.

  Each intermediate value of the body is named once (`scores`, `bmax`, `bshift`, `bexp`, `bsum`, `blog`, `battn`,
  `bout`) and read at an index by one lemma; the generated payloads are these names by unfolding.
-/
import proofs.«139406_j31885837206187_2_alg».proof.Proof.Gen.KernelIdeal.Skeleton
import proofs.«139406_j31885837206187_2_alg».proof.Proof.Softmax
import proofs.«139406_j31885837206187_2_alg».proof.Proof.LibMatmulRows
import proofs.«139406_j31885837206187_2_alg».proof.Proof.LibMatmulAt
import proofs.«139406_j31885837206187_2_alg».proof.Proof.LibAxisFold
import proofs.«139406_j31885837206187_2_alg».proof.Proof.LibRowMax
import proofs.«139406_j31885837206187_2_alg».proof.Proof.LibColBroadcast
import proofs.«139406_j31885837206187_2_alg».proof.Proof.LibColumnCast
import Idealize.ShloMosaic.Lib.ValueLayout
import Idealize.ShloMosaic.Lib.IdealHost

noncomputable section

open scoped BigOperators

namespace Cert.KernelIdeal.Block

open Cert.KernelIdeal Cert.KernelIdeal.Gen Idealize.ShloMosaic Idealize.ShloMosaic.ValueIdx Cert.Softmax

/-- The dimension numbers of the score product: `[512, 64]` by `[2048, 64]`, both last axes contracted. -/
abbrev D1 : DotDims S512x64 S2048x64 S512x2048 := dot_S512x64_S2048x64_S512x2048_1_1_0_0_n_n
/-- The dimension numbers of the context product: `[512, 2048]` by `[2048, 64]`. -/
abbrev D2 : DotDims S512x2048 S2048x64 S512x64 := dot_S512x2048_S2048x64_S512x64_1_0_0_1_n_n

theorem d1_l0 (i : S512x2048.Idx) (c : D1.contr.Idx) : (D1.lhsIdx i c (0 : Fin 2)).val = (i (0 : Fin 2)).val := by
  unfold DotDims.lhsIdx
  rw [dif_neg (show ¬(0 : Fin S512x64.rank) ∈ D1.lhsBatch by decide), dif_pos (show (0 : Fin S512x64.rank) ∈ D1.lhsNonContracting by decide)]
  rfl
theorem d1_l1 (i : S512x2048.Idx) (c : D1.contr.Idx) : (D1.lhsIdx i c (1 : Fin 2)).val = (c ⟨0, by decide⟩).val :=
  D1.lhsIdx_val_of_single rfl i c
theorem d1_r0 (i : S512x2048.Idx) (c : D1.contr.Idx) : (D1.rhsIdx i c (0 : Fin 2)).val = (i (1 : Fin 2)).val := by
  unfold DotDims.rhsIdx
  rw [dif_neg (show ¬(0 : Fin S2048x64.rank) ∈ D1.rhsBatch by decide), dif_pos (show (0 : Fin S2048x64.rank) ∈ D1.rhsNonContracting by decide)]
  rfl
theorem d1_r1 (i : S512x2048.Idx) (c : D1.contr.Idx) : (D1.rhsIdx i c (1 : Fin 2)).val = (c ⟨0, by decide⟩).val :=
  D1.rhsIdx_val_of_single rfl i c

theorem d2_l0 (i : S512x64.Idx) (c : D2.contr.Idx) : (D2.lhsIdx i c (0 : Fin 2)).val = (i (0 : Fin 2)).val := by
  unfold DotDims.lhsIdx
  rw [dif_neg (show ¬(0 : Fin S512x2048.rank) ∈ D2.lhsBatch by decide), dif_pos (show (0 : Fin S512x2048.rank) ∈ D2.lhsNonContracting by decide)]
  rfl
theorem d2_l1 (i : S512x64.Idx) (c : D2.contr.Idx) : (D2.lhsIdx i c (1 : Fin 2)).val = (c ⟨0, by decide⟩).val :=
  D2.lhsIdx_val_of_single rfl i c
theorem d2_r0 (i : S512x64.Idx) (c : D2.contr.Idx) : (D2.rhsIdx i c (0 : Fin 2)).val = (c ⟨0, by decide⟩).val :=
  D2.rhsIdx_val_of_single rfl i c
theorem d2_r1 (i : S512x64.Idx) (c : D2.contr.Idx) : (D2.rhsIdx i c (1 : Fin 2)).val = (i (1 : Fin 2)).val := by
  unfold DotDims.rhsIdx
  rw [dif_neg (show ¬(1 : Fin S2048x64.rank) ∈ D2.rhsBatch by decide), dif_pos (show (1 : Fin S2048x64.rank) ∈ D2.rhsNonContracting by decide)]
  rfl

variable (x0 : Vec Ideal S1x512x64 .f32) (x1 x2 : Vec Ideal S1x2048x64 .f32)

/-- The scores of query position `p` of the `q` block against the 2048 key positions of the `k` block. -/
def krow (p : Fin 512) : Fin 2048 → EReal :=
  fun j => (∑ d : Fin 64, x0 (ix3 (0 : Fin 1) p d) * x1 (ix3 (0 : Fin 1) j d)) * Ideal.ofBits .f32 0x3E000000#32

/-- The block's scaled scores: the product of the two blocks over their last axes, times the word of one eighth. -/
def scores : FVec Ideal S512x2048 .f32 :=
  mulf (matmul D1 none (truncf .bf16 (shapeCast S512x64 x0 shapeCasts_S1x512x64_S512x64) bitsLt_bf16_f32)
      (truncf .bf16 (shapeCast S2048x64 x1 shapeCasts_S1x2048x64_S2048x64) bitsLt_bf16_f32) (constant S512x2048 .f32 0x00000000#32))
    (broadcast S512x2048 (Scalar.ofBits .f32 0x3E000000#32))

theorem scores_apply (p : Fin 512) (j : Fin 2048) : scores x0 x1 (ix2 p j) = krow x0 x1 p j := by
  unfold scores krow
  refine congrArg (· * Ideal.ofBits .f32 0x3E000000#32) ?_
  refine (MatmulRows.matmul_zero_rows D1 rfl rfl d1_l0 d1_l1 d1_r0 d1_r1 none _ _ p j).trans ?_
  refine Finset.sum_congr rfl fun d _ => ?_
  rw [truncf_apply, truncf_apply, shapeCast_1ab_ab_apply, shapeCast_1ab_ab_apply]

/-- The rows' maxima. -/
def bmax : FVec Ideal S512 .f32 :=
  multiReduction .maximumf [1] S512 (scores x0 x1) 0xFF800000#32 reduces_S512x2048_S512 (.inl rfl) rfl

theorem bmax_apply (p : Fin 512) : bmax x0 x1 (ix1 p) = rowMax (krow x0 x1 p) := by
  unfold bmax
  refine (LibRowMax.laneMax_row (scores x0 x1) reduces_S512x2048_S512 (.inl rfl) rfl p).trans ?_
  unfold rowMax
  rw [ofBits_neg_inf]
  exact congrArg (fun f => Finset.fold max ⊥ f (Finset.univ : Finset (Fin 2048))) (funext fun k => scores_apply x0 x1 p k)

/-- A vector of 512 stood up as a column and repeated over 2048 columns reads, at `(p, j)`, the vector at `p`. -/
theorem col_apply (v : FVec Ideal S512 .f32) (p : Fin 512) (j : Fin 2048) :
    broadcastTo S512x2048 (shapeCast S512x1 v shapeCasts_S512_S512x1) broadcasts_S512x1_S512x2048 (ix2 p j) = v (ix1 p) :=
  (LibColBroadcast.broadcastTo_a1_ab_apply _ broadcasts_S512x1_S512x2048 p j).trans
    (LibColumnCast.shapeCast_a_a1_apply v shapeCasts_S512_S512x1 p 0)

/-- The shifted scores. -/
def bshift : FVec Ideal S512x2048 .f32 :=
  subf (scores x0 x1) (broadcastTo S512x2048 (shapeCast S512x1 (bmax x0 x1) shapeCasts_S512_S512x1) broadcasts_S512x1_S512x2048)

theorem pay2_eq : k0_pay2 x0 x1 = bshift x0 x1 := rfl

theorem bshift_apply (p : Fin 512) (j : Fin 2048) : bshift x0 x1 (ix2 p j) = shift (krow x0 x1 p) j := by
  unfold bshift shift
  rw [subf_apply, col_apply, scores_apply, bmax_apply]

/-- Their exponentials. -/
def bexp : FVec Ideal S512x2048 .f32 := exp (bshift x0 x1)

theorem pay3_eq : k0_pay3 x0 x1 = bexp x0 x1 := rfl

theorem bexp_apply (p : Fin 512) (j : Fin 2048) : bexp x0 x1 (ix2 p j) = expw (krow x0 x1 p) j := by
  unfold bexp expw
  show Ideal.exp (bshift x0 x1 (ix2 p j)) = _
  rw [bshift_apply]

/-- The rows' sums of exponentials. -/
def bsum : FVec Ideal S512 .f32 :=
  multiReduction .add [1] S512 (bexp x0 x1) 0x00000000#32 reduces_S512x2048_S512 (.inl rfl) rfl

theorem pay4_eq : k0_pay4 x0 x1 = shapeCast S512x1 (bsum x0 x1) shapeCasts_S512_S512x1 := rfl

theorem bsum_apply (p : Fin 512) : bsum x0 x1 (ix1 p) = rowSum (krow x0 x1 p) := by
  unfold bsum rowSum
  refine (LibAxisFold.laneSum_row (bexp x0 x1) reduces_S512x2048_S512 (.inl rfl) rfl p).trans ?_
  exact Finset.sum_congr rfl fun k _ => bexp_apply x0 x1 p k

/-- The log-weights. -/
def blog : FVec Ideal S512x2048 .f32 :=
  subf (bshift x0 x1) (broadcastTo S512x2048 (log (shapeCast S512x1 (bsum x0 x1) shapeCasts_S512_S512x1)) broadcasts_S512x1_S512x2048)

theorem pay5_eq : k0_pay5 x0 x1 = blog x0 x1 := rfl

theorem blog_apply (p : Fin 512) (j : Fin 2048) : blog x0 x1 (ix2 p j) = logSoft (krow x0 x1 p) j := by
  unfold blog logSoft
  rw [subf_apply, bshift_apply, LibColBroadcast.broadcastTo_a1_ab_apply]
  show _ - Ideal.log (shapeCast S512x1 (bsum x0 x1) shapeCasts_S512_S512x1 (ix2 p (0 : Fin 1))) = _
  rw [LibColumnCast.shapeCast_a_a1_apply, bsum_apply]

/-- The weights. -/
def battn : FVec Ideal S512x2048 .f32 :=
  mulf (bexp x0 x1) (broadcastTo S512x2048
    (divf (broadcast S512x1 (Scalar.ofBits .f32 0x3F800000#32)) (shapeCast S512x1 (bsum x0 x1) shapeCasts_S512_S512x1))
    broadcasts_S512x1_S512x2048)

theorem pay6_eq : k0_pay6 x0 x1 = battn x0 x1 := rfl

theorem battn_apply (p : Fin 512) (j : Fin 2048) : battn x0 x1 (ix2 p j) = soft (krow x0 x1 p) j := by
  unfold battn soft
  rw [mulf_apply, bexp_apply, LibColBroadcast.broadcastTo_a1_ab_apply]
  show _ * Ideal.div (Ideal.ofBits .f32 0x3F800000#32) (shapeCast S512x1 (bsum x0 x1) shapeCasts_S512_S512x1 (ix2 p (0 : Fin 1))) = _
  rw [LibColumnCast.shapeCast_a_a1_apply, bsum_apply, Ideal.ofBits_one_f32]

/-- The context rows. -/
def bout : FVec Ideal S512x64 .f32 :=
  matmul D2 none (truncf .bf16 (battn x0 x1) bitsLt_bf16_f32)
    (truncf .bf16 (shapeCast S2048x64 x2 shapeCasts_S1x2048x64_S2048x64) bitsLt_bf16_f32) (constant S512x64 .f32 0x00000000#32)

theorem pay7_eq : k0_pay7 x0 x1 x2 = shapeCast S1x512x64 (bout x0 x1 x2) shapeCasts_S512x64_S1x512x64 := rfl

theorem bout_apply (p : Fin 512) (d : Fin 64) :
    bout x0 x1 x2 (ix2 p d) = ∑ j : Fin 2048, soft (krow x0 x1 p) j * x2 (ix3 (0 : Fin 1) j d) := by
  unfold bout
  refine (MatmulAt.matmul_zero_ix2 D2 rfl rfl d2_l0 d2_l1 d2_r0 d2_r1 none _ _ p d).trans ?_
  refine Finset.sum_congr rfl fun j _ => ?_
  rw [truncf_apply, truncf_apply, battn_apply, shapeCast_1ab_ab_apply]

/-! ## The three stores -/

/-- The context store at `(u, p, d)`. -/
theorem pay7_apply (u : Fin 1) (p : Fin 512) (d : Fin 64) :
    k0_pay7 x0 x1 x2 (ix3 u p d) = ∑ j : Fin 2048, soft (krow x0 x1 p) j * x2 (ix3 (0 : Fin 1) j d) := by
  rw [pay7_eq, shapeCast_ab_1ab_apply, bout_apply]

/-- The weights' store at `(u, p, j)`. -/
theorem pay8_apply (u : Fin 1) (p : Fin 512) (j : Fin 2048) : k0_pay8 x0 x1 (ix3 u p j) = soft (krow x0 x1 p) j := by
  show shapeCast S1x512x2048 (k0_pay6 x0 x1) shapeCasts_S512x2048_S1x512x2048 (ix3 u p j) = _
  rw [pay6_eq, shapeCast_ab_1ab_apply, battn_apply]

/-- The log-weights' store at `(u, p, j)`. -/
theorem pay1_apply (u : Fin 1) (p : Fin 512) (j : Fin 2048) : k0_pay1 (k0_pay5 x0 x1) (ix3 u p j) = logSoft (krow x0 x1 p) j := by
  show shapeCast S1x512x2048 (k0_pay5 x0 x1) shapeCasts_S512x2048_S1x512x2048 (ix3 u p j) = _
  rw [pay5_eq, shapeCast_ab_1ab_apply, blog_apply]

end Cert.KernelIdeal.Block

end
-- ==== Proof.Spec.lean ====
/-
  Scaled dot-product attention as functions of the whole arrays.

  For `q k v : [16, 2048, 64]` (head, position, feature) over the extended reals: the score of query position `r`
  against key position `j` of head `b` is `(∑ d, q (b, r, d) · k (b, j, d)) · 1/8`; `row q k b r` is that row of 2048
  scores. The attention weights are the softmax of each row (`attn`), the log-weights its log-softmax (`logAttn`), and
  the context is `ctx (b, r, d) = ∑ j, attn (b, r, j) · v (b, j, d)`. The softmax is written as the exponential of the
  shifted score times the reciprocal of the row's sum (Softmax.lean's `soft`).
-/
import proofs.«139406_j31885837206187_2_alg».proof.Proof.Softmax
import Idealize.ShloMosaic.Lib.ValueIdx

noncomputable section

open scoped BigOperators

namespace Cert.Attn

open Idealize.ShloMosaic Idealize.ShloMosaic.ValueIdx Cert.Softmax

/-- The shape of `q`, `k`, `v` and of the context. -/
abbrev QKV : Shape := ⟨3, ![16, 2048, 64]⟩
/-- The shape of the weights and of the log-weights. -/
abbrev Sc : Shape := ⟨3, ![16, 2048, 2048]⟩

/-- The product of a query row with a key row, over the 64 features, scaled by the word of one eighth. -/
def dot8 (qr kr : Fin 64 → EReal) : EReal := (∑ d : Fin 64, qr d * kr d) * Ideal.ofBits .f32 0x3E000000#32

/-- The scores of query position `r` of head `b` against every key position of that head. -/
def row (q k : QKV.Idx → EReal) (b : Fin 16) (r : Fin 2048) : Fin 2048 → EReal :=
  fun j => dot8 (fun d => q (ix3 b r d)) (fun d => k (ix3 b j d))

/-- The attention weights. -/
def attn (q k : QKV.Idx → EReal) : Sc.Idx → EReal := fun i =>
  soft (row q k ⟨(i 0).val, (i 0).isLt⟩ ⟨(i 1).val, (i 1).isLt⟩) ⟨(i 2).val, (i 2).isLt⟩

/-- The logarithms of the attention weights. -/
def logAttn (q k : QKV.Idx → EReal) : Sc.Idx → EReal := fun i =>
  logSoft (row q k ⟨(i 0).val, (i 0).isLt⟩ ⟨(i 1).val, (i 1).isLt⟩) ⟨(i 2).val, (i 2).isLt⟩

/-- The context: the values averaged by the weights. -/
def ctx (q k v : QKV.Idx → EReal) : QKV.Idx → EReal := fun i =>
  ∑ j : Fin 2048, soft (row q k ⟨(i 0).val, (i 0).isLt⟩ ⟨(i 1).val, (i 1).isLt⟩) j * v (ix3 ⟨(i 0).val, (i 0).isLt⟩ j ⟨(i 2).val, (i 2).isLt⟩)

theorem attn_ix (q k : QKV.Idx → EReal) (b : Fin 16) (r j : Fin 2048) : attn q k (ix3 b r j) = soft (row q k b r) j := rfl

theorem logAttn_ix (q k : QKV.Idx → EReal) (b : Fin 16) (r j : Fin 2048) : logAttn q k (ix3 b r j) = logSoft (row q k b r) j := rfl

theorem ctx_ix (q k v : QKV.Idx → EReal) (b : Fin 16) (r : Fin 2048) (d : Fin 64) :
    ctx q k v (ix3 b r d) = ∑ j : Fin 2048, soft (row q k b r) j * v (ix3 b j d) := rfl

/-- An index of a rank-3 array with the coordinates `b`, `r`, `j` is `(b, r, j)`. -/
theorem eq_ix3_of_val {n0 n1 n2 : ℕ} (i : (⟨3, ![n0, n1, n2]⟩ : Shape).Idx) (b : Fin n0) (r : Fin n1) (j : Fin n2)
    (h0 : (i 0).val = b.val) (h1 : (i 1).val = r.val) (h2 : (i 2).val = j.val) : i = ix3 b r j :=
  funext fun a => Fin.ext (by
    match a with
    | ⟨0, _⟩ => exact h0
    | ⟨1, _⟩ => exact h1
    | ⟨2, _⟩ => exact h2)

/-- Every score of a row is a real number when every entry of `q` and of `k` is. -/
theorem row_real (q k : QKV.Idx → EReal) (hq : ∀ i, ∃ x : ℝ, q i = (x : EReal)) (hk : ∀ i, ∃ x : ℝ, k i = (x : EReal))
    (b : Fin 16) (r : Fin 2048) (j : Fin 2048) : ∃ x : ℝ, row q k b r j = (x : EReal) := by
  choose fq hfq using hq
  choose fk hfk using hk
  refine ⟨(∑ d : Fin 64, fq (ix3 b r d) * fk (ix3 b j d)) * (1 / 8), ?_⟩
  unfold row dot8
  rw [ofBits_eighth, EReal.coe_mul, coe_sum]
  refine congrArg (· * _) (Finset.sum_congr rfl fun d _ => ?_)
  show q (ix3 b r d) * k (ix3 b j d) = _
  rw [hfq, hfk, EReal.coe_mul]

/-- THE LAW joining the two programs' weights: where `q` and `k` are real, the exponential of the log-weight is
    the weight. -/
theorem exp_logAttn (q k : QKV.Idx → EReal) (hq : ∀ i, ∃ x : ℝ, q i = (x : EReal)) (hk : ∀ i, ∃ x : ℝ, k i = (x : EReal))
    (b : Fin 16) (r : Fin 2048) (j : Fin 2048) : Ideal.exp (logSoft (row q k b r) j) = soft (row q k b r) j :=
  exp_logSoft_eq_soft (row q k b r) (row_real q k hq hk b r) j

end Cert.Attn

end
-- ==== Proof.Arrays.lean ====
/-
  The kernel's three output arrays after the run, as functions of the argument arrays.

  The grid has 64 points; point `t` works on head `t / 4` and on the 512 query positions from `(t % 4) · 512`. Its
  `q` block is rows `(t % 4) · 512 + p` of head `t / 4` of `q`, its `k` and `v` blocks are the head's whole `k` and `v`
  (`qblk`, `kblk`, `vblk`), so the row of scores the body forms for position `p` is the array's row of scores
  (`krow_eq`). What the point writes back to each output is therefore that output's block of one whole-array function:
  the weights `attn`, the log-weights `logAttn`, the context `ctx` (`flushed4_eq`, `flushed5_eq`, `flushed3_eq`). Every
  index of an output lies in the block of the point `(i 0) · 4 + (i 1) / 512` (`cover4`, `cover5`, `cover3`), so each
  output array ends holding its function (`final4`, `final5`, `final3`).
-/
import proofs.«139406_j31885837206187_2_alg».proof.Proof.Gen.KernelIdeal.Frame
import proofs.«139406_j31885837206187_2_alg».proof.Proof.Block
import proofs.«139406_j31885837206187_2_alg».proof.Proof.Spec
import Idealize.ShloMosaic.Lib.Pipeline.Value

noncomputable section

open scoped BigOperators

namespace Cert.KernelIdeal.Arrays

open Cert.KernelIdeal Cert.KernelIdeal.Gen Idealize.ShloMosaic Idealize.ShloMosaic.TcCoe Idealize.SL.Sem
open Idealize.ShloMosaic.ValueIdx Cert.Softmax Cert.Attn Cert.KernelIdeal.Block
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-- The printed index maps over the grid: point `t` is at head `t / 4`; the `q` block and the three output blocks
    are at row block `t % 4`; the `k` and `v` blocks are the head's whole arrays. -/
theorem idx_facts : ∀ t : Fin cfg0.N,
    (win0_0.index t (0 : Fin 3) = t.val / 4 ∧ win0_0.index t (1 : Fin 3) = t.val % 4 ∧ win0_0.index t (2 : Fin 3) = 0)
    ∧ (win0_1.index t (0 : Fin 3) = t.val / 4 ∧ win0_1.index t (1 : Fin 3) = 0 ∧ win0_1.index t (2 : Fin 3) = 0)
    ∧ (win0_2.index t (0 : Fin 3) = t.val / 4 ∧ win0_2.index t (1 : Fin 3) = 0 ∧ win0_2.index t (2 : Fin 3) = 0)
    ∧ (win0_3.index t (0 : Fin 3) = t.val / 4 ∧ win0_3.index t (1 : Fin 3) = t.val % 4 ∧ win0_3.index t (2 : Fin 3) = 0)
    ∧ (win0_4.index t (0 : Fin 3) = t.val / 4 ∧ win0_4.index t (1 : Fin 3) = t.val % 4 ∧ win0_4.index t (2 : Fin 3) = 0)
    ∧ (win0_5.index t (0 : Fin 3) = t.val / 4 ∧ win0_5.index t (1 : Fin 3) = t.val % 4 ∧ win0_5.index t (2 : Fin 3) = 0) :=
  (by decide +kernel : ∀ t : Fin grid0.N, _)

theorem tlt (t : Fin cfg0.N) : t.val < 64 := Nat.lt_of_lt_of_eq t.isLt (show cfg0.N = 64 from N_0)

/-- The head point `t` works on. -/
def hd (t : Fin cfg0.N) : Fin 16 := ⟨t.val / 4, by have := tlt t; omega⟩

/-- The query position of row `p` of point `t`'s blocks. -/
def qpos (t : Fin cfg0.N) (p : Fin 512) : Fin 2048 := ⟨t.val % 4 * 512 + p.val, by have := p.isLt; omega⟩

/-! ## The input blocks -/

/-- The `q` block of point `t` at `(u, p, d)` is `q` at head `t / 4`, position `(t % 4) · 512 + p`, feature `d`. -/
theorem qblk (c : Dev nD) (t : Fin cfg0.N) (u : Fin 1) (p : Fin 512) (d : Fin 64) :
    (iblk m c 0 t : Vec Ideal S1x512x64 .f32) (ix3 u p d) = V m c main_arg0 (ix3 (hd t) (qpos t p) d) := by
  obtain ⟨⟨e0, e1, e2⟩, -⟩ := idx_facts t
  show V m c main_arg0 (((cfg0.win 0).blk t).view.emb (ix3 u p d)) = _
  refine congrArg (V m c main_arg0) (funext fun a => Fin.ext ?_)
  match a with
  | ⟨0, _⟩ => show win0_0.index t (0 : Fin 3) * 1 + 1 * u.val = t.val / 4; have := u.isLt; omega
  | ⟨1, _⟩ => show win0_0.index t (1 : Fin 3) * 512 + 1 * p.val = t.val % 4 * 512 + p.val; omega
  | ⟨2, _⟩ => show win0_0.index t (2 : Fin 3) * 64 + 1 * d.val = d.val; omega

/-- The `k` block of point `t` at `(u, j, d)` is `k` at head `t / 4`, position `j`, feature `d`. -/
theorem kblk (c : Dev nD) (t : Fin cfg0.N) (u : Fin 1) (j : Fin 2048) (d : Fin 64) :
    (iblk m c 1 t : Vec Ideal S1x2048x64 .f32) (ix3 u j d) = V m c main_arg1 (ix3 (hd t) j d) := by
  obtain ⟨-, ⟨e0, e1, e2⟩, -⟩ := idx_facts t
  show V m c main_arg1 (((cfg0.win 1).blk t).view.emb (ix3 u j d)) = _
  refine congrArg (V m c main_arg1) (funext fun a => Fin.ext ?_)
  match a with
  | ⟨0, _⟩ => show win0_1.index t (0 : Fin 3) * 1 + 1 * u.val = t.val / 4; have := u.isLt; omega
  | ⟨1, _⟩ => show win0_1.index t (1 : Fin 3) * 2048 + 1 * j.val = j.val; omega
  | ⟨2, _⟩ => show win0_1.index t (2 : Fin 3) * 64 + 1 * d.val = d.val; omega

/-- The `v` block of point `t` at `(u, j, d)` is `v` at head `t / 4`, position `j`, feature `d`. -/
theorem vblk (c : Dev nD) (t : Fin cfg0.N) (u : Fin 1) (j : Fin 2048) (d : Fin 64) :
    (iblk m c 2 t : Vec Ideal S1x2048x64 .f32) (ix3 u j d) = V m c main_arg2 (ix3 (hd t) j d) := by
  obtain ⟨-, -, ⟨e0, e1, e2⟩, -⟩ := idx_facts t
  show V m c main_arg2 (((cfg0.win 2).blk t).view.emb (ix3 u j d)) = _
  refine congrArg (V m c main_arg2) (funext fun a => Fin.ext ?_)
  match a with
  | ⟨0, _⟩ => show win0_2.index t (0 : Fin 3) * 1 + 1 * u.val = t.val / 4; have := u.isLt; omega
  | ⟨1, _⟩ => show win0_2.index t (1 : Fin 3) * 2048 + 1 * j.val = j.val; omega
  | ⟨2, _⟩ => show win0_2.index t (2 : Fin 3) * 64 + 1 * d.val = d.val; omega

/-- The row of scores the body forms for row `p` of point `t` is the arrays' row of scores of head `t / 4` at
    position `(t % 4) · 512 + p`. -/
theorem krow_eq (c : Dev nD) (t : Fin cfg0.N) (p : Fin 512) :
    krow (iblk m c 0 t) (iblk m c 1 t) p = row (V m c main_arg0) (V m c main_arg1) (hd t) (qpos t p) := by
  funext j
  unfold krow row dot8
  refine congrArg (· * Ideal.ofBits .f32 0x3E000000#32) (Finset.sum_congr rfl fun d _ => ?_)
  exact congrArg₂ (fun a b : EReal => a * b) (qblk m c t 0 p d) (kblk m c t 0 j d)

/-! ## The weights: output window 4 -/

/-- Where an element of point `t`'s block of the weights sits in the array. -/
theorem emb4 (t : Fin cfg0.N) (u : Fin 1) (p : Fin 512) (j : Fin 2048) :
    ((cfg0.win 4).blk t).view.emb (ix3 u p j) = ix3 (hd t) (qpos t p) j := by
  obtain ⟨-, -, -, -, ⟨e0, e1, e2⟩, -⟩ := idx_facts t
  refine eq_ix3_of_val (n0 := 16) (n1 := 2048) (n2 := 2048) _ _ _ _ ?_ ?_ ?_
  · show win0_4.index t (0 : Fin 3) * 1 + 1 * u.val = t.val / 4
    have := u.isLt
    omega
  · show win0_4.index t (1 : Fin 3) * 512 + 1 * p.val = t.val % 4 * 512 + p.val
    omega
  · show win0_4.index t (2 : Fin 3) * 2048 + 1 * j.val = j.val
    omega

/-- WHAT POINT `t` WRITES BACK to the weights is block `t` of `attn` of the argument arrays. -/
theorem flushed4_eq (c : Dev nD) (t : Fin cfg0.N) :
    (dats m 0 c).flushed 4 t = ((cfg0.win 4).blk t).view.read (Elt Ideal) (attn (V m c main_arg0) (V m c main_arg1)) := by
  show (cfg0.win 4).cut (grid0.coords t) ((dats m 0 c).after 4 t) = _
  rw [after0_4]
  unfold out0_4
  rw [View.canon_unit_zero hz]
  simp only [View.ld_unit_zero (S := S1x512x64) hz, View.ld_unit_zero (S := S1x2048x64) hz]
  funext y
  obtain ⟨u, p, j, rfl⟩ : ∃ (u : Fin 1) (p : Fin 512) (j : Fin 2048), y = ix3 u p j :=
    ⟨y 0, y 1, y 2, eq_ix3 (n0 := 1) (n1 := 512) (n2 := 2048) y⟩
  show k0_pay8 (iblk m c 0 t) (iblk m c 1 t) (ix3 u p j) = attn (V m c main_arg0) (V m c main_arg1) (((cfg0.win 4).blk t).view.emb (ix3 u p j))
  rw [emb4 t u p j, attn_ix]
  refine (pay8_apply (iblk m c 0 t) (iblk m c 1 t) u p j).trans ?_
  rw [krow_eq]

/-- An index of the weights is in point `t`'s block iff each coordinate is in the block's range on its axis. -/
theorem mem_blk4 (t : Fin cfg0.N) (i : S16x2048x2048.Idx) :
    i ∈ ((cfg0.win 4).blk t).view.set ↔ ∀ a : Fin 3, win0_4.index t a * S1x512x2048.size a ≤ (i a).val ∧ (i a).val < win0_4.index t a * S1x512x2048.size a + S1x512x2048.size a := by
  show i ∈ ((View.whole main_v0_1).slice (win0_4.rect t)).set ↔ _
  rw [View.set_slice_whole, Rect.mem_set_unit]
  exact Iff.rfl

/-- Every index of the weights is in the block of the point of its head and row block. -/
theorem cover4 (i : S16x2048x2048.Idx) : ∃ t : Fin cfg0.N, (cfg0.win 4).flush t = true ∧ i ∈ ((cfg0.win 4).blk t).view.set := by
  have h0 : (i 0).val < 16 := (i 0).isLt
  have h1 : (i 1).val < 2048 := (i 1).isLt
  have h2 : (i 2).val < 2048 := (i 2).isLt
  have hN : cfg0.N = 64 := N_0
  obtain ⟨t, ht⟩ : ∃ t : Fin cfg0.N, t.val = (i 0).val * 4 + (i 1).val / 512 := ⟨⟨(i 0).val * 4 + (i 1).val / 512, by rw [hN]; omega⟩, rfl⟩
  obtain ⟨-, -, -, -, ⟨e0, e1, e2⟩, -⟩ := idx_facts t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 2048 ≤ (i 2).val ∧ (i 2).val < win0_4.index t (2 : Fin 3) * 2048 + 2048; omega

/-- THE WEIGHTS after the run. -/
theorem final4 (c : Dev nD) : (dats m 0 c).arrAt 4 cfg0.N = attn (V m c main_arg0) (V m c main_arg1) :=
  (dats m 0 c).arrAt_eq_of_cover 4 _ (fun t _ => flushed4_eq m c t) cover4

/-! ## The log-weights: output window 5 -/

/-- Where an element of point `t`'s block of the log-weights sits in the array. -/
theorem emb5 (t : Fin cfg0.N) (u : Fin 1) (p : Fin 512) (j : Fin 2048) :
    ((cfg0.win 5).blk t).view.emb (ix3 u p j) = ix3 (hd t) (qpos t p) j := by
  obtain ⟨-, -, -, -, -, ⟨e0, e1, e2⟩⟩ := idx_facts t
  refine eq_ix3_of_val (n0 := 16) (n1 := 2048) (n2 := 2048) _ _ _ _ ?_ ?_ ?_
  · show win0_5.index t (0 : Fin 3) * 1 + 1 * u.val = t.val / 4
    have := u.isLt
    omega
  · show win0_5.index t (1 : Fin 3) * 512 + 1 * p.val = t.val % 4 * 512 + p.val
    omega
  · show win0_5.index t (2 : Fin 3) * 2048 + 1 * j.val = j.val
    omega

/-- WHAT POINT `t` WRITES BACK to the log-weights is block `t` of `logAttn` of the argument arrays. -/
theorem flushed5_eq (c : Dev nD) (t : Fin cfg0.N) :
    (dats m 0 c).flushed 5 t = ((cfg0.win 5).blk t).view.read (Elt Ideal) (logAttn (V m c main_arg0) (V m c main_arg1)) := by
  show (cfg0.win 5).cut (grid0.coords t) ((dats m 0 c).after 5 t) = _
  rw [after0_5]
  unfold out0_5
  rw [View.canon_unit_zero hz]
  simp only [View.ld_unit_zero (S := S1x512x64) hz, View.ld_unit_zero (S := S1x2048x64) hz]
  funext y
  obtain ⟨u, p, j, rfl⟩ : ∃ (u : Fin 1) (p : Fin 512) (j : Fin 2048), y = ix3 u p j :=
    ⟨y 0, y 1, y 2, eq_ix3 (n0 := 1) (n1 := 512) (n2 := 2048) y⟩
  show k0_pay1 (k0_pay5 (iblk m c 0 t) (iblk m c 1 t)) (ix3 u p j) = logAttn (V m c main_arg0) (V m c main_arg1) (((cfg0.win 5).blk t).view.emb (ix3 u p j))
  rw [emb5 t u p j, logAttn_ix]
  refine (pay1_apply (iblk m c 0 t) (iblk m c 1 t) u p j).trans ?_
  rw [krow_eq]

/-- An index of the log-weights is in point `t`'s block iff each coordinate is in the block's range on its axis. -/
theorem mem_blk5 (t : Fin cfg0.N) (i : S16x2048x2048.Idx) :
    i ∈ ((cfg0.win 5).blk t).view.set ↔ ∀ a : Fin 3, win0_5.index t a * S1x512x2048.size a ≤ (i a).val ∧ (i a).val < win0_5.index t a * S1x512x2048.size a + S1x512x2048.size a := by
  show i ∈ ((View.whole main_v0_2).slice (win0_5.rect t)).set ↔ _
  rw [View.set_slice_whole, Rect.mem_set_unit]
  exact Iff.rfl

/-- Every index of the log-weights is in the block of the point of its head and row block. -/
theorem cover5 (i : S16x2048x2048.Idx) : ∃ t : Fin cfg0.N, (cfg0.win 5).flush t = true ∧ i ∈ ((cfg0.win 5).blk t).view.set := by
  have h0 : (i 0).val < 16 := (i 0).isLt
  have h1 : (i 1).val < 2048 := (i 1).isLt
  have h2 : (i 2).val < 2048 := (i 2).isLt
  have hN : cfg0.N = 64 := N_0
  obtain ⟨t, ht⟩ : ∃ t : Fin cfg0.N, t.val = (i 0).val * 4 + (i 1).val / 512 := ⟨⟨(i 0).val * 4 + (i 1).val / 512, by rw [hN]; omega⟩, rfl⟩
  obtain ⟨-, -, -, -, -, ⟨e0, e1, e2⟩⟩ := idx_facts t
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 2048 ≤ (i 2).val ∧ (i 2).val < win0_5.index t (2 : Fin 3) * 2048 + 2048; omega

/-- THE LOG-WEIGHTS after the run. -/
theorem final5 (c : Dev nD) : (dats m 0 c).arrAt 5 cfg0.N = logAttn (V m c main_arg0) (V m c main_arg1) :=
  (dats m 0 c).arrAt_eq_of_cover 5 _ (fun t _ => flushed5_eq m c t) cover5

/-! ## The context: output window 3 -/

/-- Where an element of point `t`'s block of the context sits in the array. -/
theorem emb3 (t : Fin cfg0.N) (u : Fin 1) (p : Fin 512) (d : Fin 64) :
    ((cfg0.win 3).blk t).view.emb (ix3 u p d) = ix3 (hd t) (qpos t p) d := by
  obtain ⟨-, -, -, ⟨e0, e1, e2⟩, -⟩ := idx_facts t
  refine eq_ix3_of_val (n0 := 16) (n1 := 2048) (n2 := 64) _ _ _ _ ?_ ?_ ?_
  · show win0_3.index t (0 : Fin 3) * 1 + 1 * u.val = t.val / 4
    have := u.isLt
    omega
  · show win0_3.index t (1 : Fin 3) * 512 + 1 * p.val = t.val % 4 * 512 + p.val
    omega
  · show win0_3.index t (2 : Fin 3) * 64 + 1 * d.val = d.val
    omega

/-- WHAT POINT `t` WRITES BACK to the context is block `t` of `ctx` of the argument arrays. -/
theorem flushed3_eq (c : Dev nD) (t : Fin cfg0.N) :
    (dats m 0 c).flushed 3 t = ((cfg0.win 3).blk t).view.read (Elt Ideal) (ctx (V m c main_arg0) (V m c main_arg1) (V m c main_arg2)) := by
  show (cfg0.win 3).cut (grid0.coords t) ((dats m 0 c).after 3 t) = _
  rw [after0_3]
  unfold out0_3
  rw [View.canon_unit_zero hz]
  simp only [View.ld_unit_zero (S := S1x512x64) hz, View.ld_unit_zero (S := S1x2048x64) hz]
  funext y
  obtain ⟨u, p, d, rfl⟩ : ∃ (u : Fin 1) (p : Fin 512) (d : Fin 64), y = ix3 u p d :=
    ⟨y 0, y 1, y 2, eq_ix3 (n0 := 1) (n1 := 512) (n2 := 64) y⟩
  show k0_pay7 (iblk m c 0 t) (iblk m c 1 t) (iblk m c 2 t) (ix3 u p d) = ctx (V m c main_arg0) (V m c main_arg1) (V m c main_arg2) (((cfg0.win 3).blk t).view.emb (ix3 u p d))
  rw [emb3 t u p d, ctx_ix]
  refine (pay7_apply (iblk m c 0 t) (iblk m c 1 t) (iblk m c 2 t) u p d).trans ?_
  rw [krow_eq]
  exact Finset.sum_congr rfl fun j _ => congrArg (fun a : EReal => soft (row (V m c main_arg0) (V m c main_arg1) (hd t) (qpos t p)) j * a) (vblk m c t 0 j d)

/-- An index of the context is in point `t`'s block iff each coordinate is in the block's range on its axis. -/
theorem mem_blk3 (t : Fin cfg0.N) (i : S16x2048x64.Idx) :
    i ∈ ((cfg0.win 3).blk t).view.set ↔ ∀ a : Fin 3, win0_3.index t a * S1x512x64.size a ≤ (i a).val ∧ (i a).val < win0_3.index t a * S1x512x64.size a + S1x512x64.size a := by
  show i ∈ ((View.whole main_v0_0).slice (win0_3.rect t)).set ↔ _
  rw [View.set_slice_whole, Rect.mem_set_unit]
  exact Iff.rfl

/-- Every index of the context is in the block of the point of its head and row block. -/
theorem cover3 (i : S16x2048x64.Idx) : ∃ t : Fin cfg0.N, (cfg0.win 3).flush t = true ∧ i ∈ ((cfg0.win 3).blk t).view.set := by
  have h0 : (i 0).val < 16 := (i 0).isLt
  have h1 : (i 1).val < 2048 := (i 1).isLt
  have h2 : (i 2).val < 64 := (i 2).isLt
  have hN : cfg0.N = 64 := N_0
  obtain ⟨t, ht⟩ : ∃ t : Fin cfg0.N, t.val = (i 0).val * 4 + (i 1).val / 512 := ⟨⟨(i 0).val * 4 + (i 1).val / 512, by rw [hN]; omega⟩, rfl⟩
  obtain ⟨-, -, -, ⟨e0, e1, e2⟩, -⟩ := idx_facts t
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 64 ≤ (i 2).val ∧ (i 2).val < win0_3.index t (2 : Fin 3) * 64 + 64; omega

/-- THE CONTEXT after the run. -/
theorem final3 (c : Dev nD) : (dats m 0 c).arrAt 3 cfg0.N = ctx (V m c main_arg0) (V m c main_arg1) (V m c main_arg2) :=
  (dats m 0 c).arrAt_eq_of_cover 3 _ (fun t _ => flushed3_eq m c t) cover3

end Cert.KernelIdeal.Arrays

end
-- ==== Proof.KernelRun.lean ====
/-
  The idealized kernel's run, read: every weakly fair execution ends with the weights at `attn`, the log-weights at
  `logAttn`, and the first result at the context `ctx` with heads and positions exchanged and the last two axes
  merged — the two host operations after the region applied to the region's context array —, the arguments unchanged.
-/
import proofs.«139406_j31885837206187_2_alg».proof.Proof.Arrays
import Idealize.ShloMosaic.Lib.StableHlo.Run

noncomputable section

namespace Cert.KernelIdeal.KernelRun

open Cert.KernelIdeal Cert.KernelIdeal.Gen Idealize.ShloMosaic Idealize.ShloMosaic.TcCoe Idealize.SL.Sem
open Idealize.ShloMosaic.ValueIdx Cert.Attn Cert.KernelIdeal.Arrays Idealize.ShloMosaic.StableHlo
open Idealize.ShloMosaic.Pipeline (Dat)

variable (m : (ℓ : Loc nD τ sig) → Buf (Elt Ideal) ℓ) (ρ : Dev nD → PrngReg)

/-- The first result is no array of the region: it is among the buffers the host operations after it leave. -/
theorem mem_v2 : main_v2 ∈ Pipeline.restRefs sig (cfgs (0 : Fin 1)).spec :=
  Pipeline.mem_restRefs_of main_v2 rfl (fun w => by fin_cases w <;> decide)

/-- The two host operations after the region, applied to the region's arrays: the transpose and the reshape of the
    context array. -/
theorem tail_eq (c : Dev nD) :
    Pipeline.afterTail₀ cfgs (dats m) 0 (V0 m) [hostOps1] c main_v2
      = shapeCast S2048x1024 (transpose S2048x16x64 [1, 0, 2]
          (Pipeline.withArrays (cfgs 0).spec c (V0 m c) (fun w => (dats m 0 c).arrAt w (cfgs 0).N) (Proc.devRef .tc main_v0_0))
          transposes_S16x2048x64_S2048x16x64_1_0_2) shapeCasts_S2048x16x64_S2048x1024 := by
  unfold Pipeline.afterTail₀
  show StableHlo.after hostOps1 _ (Proc.devRef .tc main_v2) = _
  after_results <;> rfl

/-- The context array after the region is `ctx` of the arguments. -/
theorem ctx_arr (c : Dev nD) :
    Pipeline.withArrays (cfgs 0).spec c (V0 m c) (fun w => (dats m 0 c).arrAt w (cfgs 0).N) (Proc.devRef .tc main_v0_0)
      = ctx (m ((c.tc : Thread nD τ).loc main_arg0)) (m ((c.tc : Thread nD τ).loc main_arg1)) (m ((c.tc : Thread nD τ).loc main_arg2)) :=
  (Pipeline.withArrays_arr spec0 launch0.win.arr_inj c _ _ 3).trans (final3 m c)

/-- THE RUN of the idealized kernel, with each result named. -/
theorem run : θ_run defs (onTc (τ := τ) (main (F := Ideal))) ⟨m, fun _ => 0, ρ⟩ fun r => ∀ c : Dev nD,
      r.2.mem ((c.tc : Thread nD τ).loc main_v2)
        = shapeCast S2048x1024 (transpose S2048x16x64 [1, 0, 2]
            (ctx (m ((c.tc : Thread nD τ).loc main_arg0)) (m ((c.tc : Thread nD τ).loc main_arg1)) (m ((c.tc : Thread nD τ).loc main_arg2)))
            transposes_S16x2048x64_S2048x16x64_1_0_2) shapeCasts_S2048x16x64_S2048x1024
      ∧ r.2.mem ((c.tc : Thread nD τ).loc main_v0_1) = attn (m ((c.tc : Thread nD τ).loc main_arg0)) (m ((c.tc : Thread nD τ).loc main_arg1))
      ∧ r.2.mem ((c.tc : Thread nD τ).loc main_v0_2) = logAttn (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v2 mem_v2).trans ((tail_eq m c).trans
        (congrArg (fun x => shapeCast S2048x1024 (transpose S2048x16x64 [1, 0, 2] x transposes_S16x2048x64_S2048x16x64_1_0_2) shapeCasts_S2048x16x64_S2048x1024) (ctx_arr m c))),
      ((h c).1 4).trans (final4 m c),
      ((h c).1 5).trans (final5 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.KernelRun

end
-- ==== Proof.RefValue.lean ====
/-
  The reference's three results as the whole-array functions of Spec.lean, at the ideal instance.

  Stage by stage, at an index `(b, r, j)`: the host's product of `q` and `k` over the features divided by the word of
  eight is the score `row q k b r j` (a quotient by eight is the product with one eighth on every extended real); the
  host's maximum along the last axis, then the maximum with minus infinity in front, is the row's maximum; the
  subtraction, the exponential, the sum along the last axis from the zero word, the logarithm and the second subtraction
  give the log-softmax of the row (`logAttn`, with no hypothesis). The weights are the exponential of the log-weights:
  they are `attn`, the exponential times the reciprocal of the sum, where `q` and `k` are real (`exp_logAttn`); the
  context is then `ctx`.
-/
import proofs.«139406_j31885837206187_2_alg».proof.Proof.RefRead
import proofs.«139406_j31885837206187_2_alg».proof.Proof.Spec
import proofs.«139406_j31885837206187_2_alg».proof.Proof.LibRowMax

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Softmax Cert.Attn

variable (x0 x1 x2 : (⟨S16x2048x64, .f32⟩ : BufTy).Contents (Elt Ideal))

theorem lidx0 (b : Fin 16) (r j : Fin 2048) (k : Fin 64) : lidx_main_v0 (ix3 b r j) k = ix3 b r k :=
  funext fun a => Fin.ext (by match a with | ⟨0, _⟩ => rfl | ⟨1, _⟩ => rfl | ⟨2, _⟩ => rfl)

theorem ridx0 (b : Fin 16) (r j : Fin 2048) (k : Fin 64) : ridx_main_v0 (ix3 b r j) k = ix3 b j k :=
  funext fun a => Fin.ext (by match a with | ⟨0, _⟩ => rfl | ⟨1, _⟩ => rfl | ⟨2, _⟩ => rfl)

/-- The scaled scores. -/
theorem scores_apply (b : Fin 16) (r j : Fin 2048) : val_main_v2 (F := Ideal) x0 x1 (ix3 b r j) = row x0 x1 b r j := by
  rw [val_main_v2_apply, val_main_v0_apply, val_main_v1_apply, val_main_cst_apply]
  simp only [lidx0, ridx0, Ideal.hostDivf_def, Ideal.ofBits_def]
  exact div_eight _

/-- The row's maximum. -/
theorem max_apply (b : Fin 16) (r : Fin 2048) : val_main_call0_v2 (F := Ideal) x0 x1 (ix2 b r) = rowMax (row x0 x1 b r) := by
  rw [val_main_call0_v2_apply, val_main_call0_v1_apply, val_main_call0_cst_0_apply]
  unfold val_main_call0_v0
  rw [LibRowMax.hostMax_last3 (val_main_v2 (F := Ideal) x0 x1) (val_main_call0_cst (F := Ideal)) reducesTo_S16x2048x2048_S16x2048_d2 (by decide) h_S_ b r]
  rw [val_main_call0_cst_apply]
  simp only [Ideal.maximumf_def, Ideal.ofBits_def, ofBits_neg_inf]
  unfold rowMax
  rw [max_eq_right bot_le]
  exact congrArg (fun f => Finset.fold max ⊥ f (Finset.univ : Finset (Fin 2048))) (funext fun k => scores_apply x0 x1 b r k)

theorem idx34 (b : Fin 16) (r j : Fin 2048) : idx_main_call0_v3 (idx_main_call0_v4 (ix3 b r j)) = ix2 b r :=
  funext fun a => Fin.ext (by match a with | ⟨0, _⟩ => rfl | ⟨1, _⟩ => rfl)

/-- The shifted scores. -/
theorem shift_apply (b : Fin 16) (r j : Fin 2048) : val_main_call0_v5 (F := Ideal) x0 x1 (ix3 b r j) = shift (row x0 x1 b r) j := by
  rw [val_main_call0_v5_apply, val_main_call0_v4_apply, val_main_call0_v3_apply, idx34, scores_apply, max_apply]
  rfl

/-- Their exponentials. -/
theorem exp_apply (b : Fin 16) (r j : Fin 2048) : val_main_call0_v6 (F := Ideal) x0 x1 (ix3 b r j) = expw (row x0 x1 b r) j := by
  rw [val_main_call0_v6_apply, shift_apply]
  rfl

theorem idx7 (b : Fin 16) (r : Fin 2048) (k : Fin 2048) : idx_main_call0_v7 (ix2 b r) k = ix3 b r k :=
  funext fun a => Fin.ext (by match a with | ⟨0, _⟩ => rfl | ⟨1, _⟩ => rfl | ⟨2, _⟩ => rfl)

/-- The row's sum of exponentials. -/
theorem sum_apply (b : Fin 16) (r : Fin 2048) : val_main_call0_v7 (F := Ideal) x0 x1 (ix2 b r) = rowSum (row x0 x1 b r) := by
  rw [val_main_call0_v7_apply, val_main_call0_cst_1_apply]
  simp only [Ideal.ofBits_def, Ideal.ofBits_zero_f32, zero_add, idx7]
  exact Finset.sum_congr rfl fun k _ => exp_apply x0 x1 b r k

theorem idx810 (b : Fin 16) (r j : Fin 2048) : idx_main_call0_v8 (idx_main_call0_v10 (ix3 b r j)) = ix2 b r :=
  funext fun a => Fin.ext (by match a with | ⟨0, _⟩ => rfl | ⟨1, _⟩ => rfl)

/-- The log-weights. -/
theorem logAttn_apply (b : Fin 16) (r j : Fin 2048) : val_main_v3 (F := Ideal) x0 x1 (ix3 b r j) = logSoft (row x0 x1 b r) j := by
  rw [val_main_v3_apply, val_main_call0_v10_apply, val_main_call0_v9_apply, val_main_call0_v8_apply, idx810, shift_apply, sum_apply]
  rfl

/-- THE LOG-WEIGHTS, whole. -/
theorem main_v3_eq : val_main_v3 (F := Ideal) x0 x1 = logAttn x0 x1 := by
  funext i
  obtain ⟨b, r, j, rfl⟩ : ∃ (b : Fin 16) (r j : Fin 2048), i = ix3 b r j := ⟨i 0, i 1, i 2, eq_ix3 i⟩
  rw [logAttn_apply, logAttn_ix]

variable (hq : ∀ i, ∃ x : ℝ, x0 i = (x : EReal)) (hk : ∀ i, ∃ x : ℝ, x1 i = (x : EReal))
include hq hk

/-- The weights, where `q` and `k` are real. -/
theorem attn_apply (b : Fin 16) (r j : Fin 2048) : val_main_v4 (F := Ideal) x0 x1 (ix3 b r j) = soft (row x0 x1 b r) j := by
  rw [val_main_v4_apply, logAttn_apply]
  exact exp_logAttn x0 x1 hq hk b r j

/-- THE WEIGHTS, whole. -/
theorem main_v4_eq : val_main_v4 (F := Ideal) x0 x1 = attn x0 x1 := by
  funext i
  obtain ⟨b, r, j, rfl⟩ : ∃ (b : Fin 16) (r j : Fin 2048), i = ix3 b r j := ⟨i 0, i 1, i 2, eq_ix3 i⟩
  rw [attn_apply x0 x1 hq hk, attn_ix]

omit hq hk in
theorem lidx5 (b : Fin 16) (r : Fin 2048) (d : Fin 64) (k : Fin 2048) : lidx_main_v5 (ix3 b r d) k = ix3 b r k :=
  funext fun a => Fin.ext (by match a with | ⟨0, _⟩ => rfl | ⟨1, _⟩ => rfl | ⟨2, _⟩ => rfl)

omit hq hk in
theorem ridx5 (b : Fin 16) (r : Fin 2048) (d : Fin 64) (k : Fin 2048) : ridx_main_v5 (ix3 b r d) k = ix3 b k d :=
  funext fun a => Fin.ext (by match a with | ⟨0, _⟩ => rfl | ⟨1, _⟩ => rfl | ⟨2, _⟩ => rfl)

/-- THE CONTEXT, whole. -/
theorem main_v5_eq : val_main_v5 (F := Ideal) x0 x1 x2 = ctx x0 x1 x2 := by
  funext i
  obtain ⟨b, r, d, rfl⟩ : ∃ (b : Fin 16) (r : Fin 2048) (d : Fin 64), i = ix3 b r d := ⟨i 0, i 1, i 2, eq_ix3 i⟩
  rw [val_main_v5_apply, ctx_ix]
  refine Finset.sum_congr rfl fun k _ => ?_
  rw [lidx5, ridx5, attn_apply x0 x1 hq hk]

/-- THE FIRST RESULT: the context with heads and positions exchanged and the last two axes merged. -/
theorem main_v7_eq : val_main_v7 (F := Ideal) x0 x1 x2
    = shapeCast S2048x1024 (transpose S2048x16x64 [1, 0, 2] (ctx x0 x1 x2) transposes_S16x2048x64_S2048x16x64_1_0_2) shapeCasts_S2048x16x64_S2048x1024 := by
  unfold val_main_v7 val_main_v6
  rw [main_v5_eq x0 x1 x2 hq hk]

end Cert.ReferenceIdeal.RefValue

end
-- ==== Proof.LibStage.lean ====
import Idealize.ShloMosaic.Lib.StableHlo.Run
import Idealize.ShloMosaic.Lib.Pipeline.Frame

/-! Straight-line programs in single-assignment form.

A list of host operations is *ascending from `n`* when its `k`-th operation writes exactly the TensorCore
reference of index `n + k`: every buffer is written once, in the order of the indices. In such a list the
contents of a buffer after the whole line are what its one writer left, and the writer read buffers of smaller
index, which no later operation touches; so every written buffer satisfies a *stage equation*: its final contents
are its operation's function of its operands' final contents. -/

noncomputable section

namespace Idealize.ShloMosaic.StableHlo

open TcCoe

variable {τ : Topo} {sig : RefSig} {Val : EltTy → Type}

/-- The operation writes only the TensorCore reference(s) of index `n`. -/
def WritesAt (n : Nat) (op : HloOp τ sig Val) : Prop :=
  ∀ b ∈ op.writes, ∃ r : Ref sig .tc, b = Proc.devRef .tc r ∧ r.idx.val = n

/-- The `k`-th operation writes index `n + k` only. -/
def Asc : Nat → List (HloOp τ sig Val) → Prop
  | _, [] => True
  | n, op :: rest => WritesAt n op ∧ Asc (n + 1) rest

/-! Each builder writes its result reference only. -/

theorem nullary_writesAt (y : Ref sig .tc) (v : y.ty.Contents Val) (hy) :
    WritesAt y.idx.val (nullary (τ := τ) y v hy) := by
  intro b hb; rw [nullary_writes, Finset.mem_singleton] at hb; exact ⟨y, hb, rfl⟩
theorem unary_writesAt (x y : Ref sig .tc) (f : x.ty.Contents Val → y.ty.Contents Val) (hx hy) :
    WritesAt y.idx.val (unary (τ := τ) x y f hx hy) := by
  intro b hb; rw [unary_writes, Finset.mem_singleton] at hb; exact ⟨y, hb, rfl⟩
theorem binary_writesAt (a b y : Ref sig .tc) (f : a.ty.Contents Val → b.ty.Contents Val → y.ty.Contents Val) (ha hb hy) :
    WritesAt y.idx.val (binary (τ := τ) a b y f ha hb hy) := by
  intro b' hb'; rw [binary_writes, Finset.mem_singleton] at hb'; exact ⟨y, hb', rfl⟩
theorem ternary_writesAt (c a b y : Ref sig .tc)
    (f : c.ty.Contents Val → a.ty.Contents Val → b.ty.Contents Val → y.ty.Contents Val) (hc ha hb hy) :
    WritesAt y.idx.val (ternary (τ := τ) c a b y f hc ha hb hy) := by
  intro b' hb'; rw [ternary_writes, Finset.mem_singleton] at hb'; exact ⟨y, hb', rfl⟩
theorem reshape_writesAt (x y : Ref sig .tc) (he hn hx hy) :
    WritesAt y.idx.val (reshape (τ := τ) (Val := Val) x y he hn hx hy) := by
  intro b hb; rw [reshape_writes, Finset.mem_singleton] at hb; exact ⟨y, hb, rfl⟩

theorem asc_append : ∀ {n : Nat} {l₁ l₂ : List (HloOp τ sig Val)},
    Asc n l₁ → Asc (n + l₁.length) l₂ → Asc n (l₁ ++ l₂)
  | _, [], _, _, h => by simpa using h
  | n, op :: l₁, l₂, h₁, h₂ => ⟨h₁.1, asc_append h₁.2 (by
      have : n + 1 + l₁.length = n + (op :: l₁).length := by simp only [List.length_cons]; omega
      rw [this]; exact h₂)⟩

theorem asc_of_append : ∀ {n : Nat} {l₁ l₂ : List (HloOp τ sig Val)},
    Asc n (l₁ ++ l₂) → Asc (n + l₁.length) l₂
  | _, [], _, h => by simpa using h
  | n, op :: l₁, l₂, h => by
      have := asc_of_append (n := n + 1) (l₁ := l₁) (l₂ := l₂) h.2
      have e : n + 1 + l₁.length = n + (op :: l₁).length := by simp only [List.length_cons]; omega
      rw [e] at this; exact this

/-- An ascending list writes no reference of index below its start. -/
theorem after_of_idx_lt : ∀ {n : Nat} {ops : List (HloOp τ sig Val)}, Asc n ops → ∀ (V : Valuation τ sig Val)
    (r : Ref sig .tc), r.idx.val < n → after ops V (Proc.devRef .tc r) = V (Proc.devRef .tc r)
  | _, [], _, _, _, _ => rfl
  | n, op :: rest, h, V, r, hr => by
      rw [after_cons, after_of_idx_lt h.2 _ r (by omega), op.result_of_not_mem V]
      intro hb
      obtain ⟨r', e, hn⟩ := h.1 _ hb
      have := Proc.devRef_injective _ e
      subst this; omega

/-- An operation that writes index `n` only leaves every reference of another index as it was. -/
theorem WritesAt.result_ne {n : Nat} {op : HloOp τ sig Val} (h : WritesAt n op) (W : Valuation τ sig Val)
    (r : Ref sig .tc) (hr : r.idx.val ≠ n) : op.result W (Proc.devRef .tc r) = W (Proc.devRef .tc r) := by
  apply op.result_of_not_mem
  intro hb
  obtain ⟨r', e, hn⟩ := h _ hb
  have := Proc.devRef_injective _ e
  subst this; exact hr hn

/-- The stage at position `k` of an ascending list: there are contents `W` (those before the operation) such
    that every reference of index at most `n + k` ends at the operation's result from `W`, and `W` agrees with
    the final contents on every reference of index below `n + k`. -/
theorem stage {n : Nat} {ops : List (HloOp τ sig Val)} (asc : Asc n ops) (V : Valuation τ sig Val)
    (k : Nat) {op : HloOp τ sig Val} (hk : ops[k]? = some op) :
    ∃ W : Valuation τ sig Val,
      (∀ r : Ref sig .tc, r.idx.val ≤ n + k → after ops V (Proc.devRef .tc r) = op.result W (Proc.devRef .tc r)) ∧
      (∀ r : Ref sig .tc, r.idx.val < n + k → W (Proc.devRef .tc r) = after ops V (Proc.devRef .tc r)) := by
  obtain ⟨hlt, hget⟩ := List.getElem?_eq_some_iff.mp hk
  have hsplit : ops = ops.take k ++ op :: ops.drop (k + 1) := by
    rw [← hget, List.getElem_cons_drop_succ_eq_drop, List.take_append_drop]
  have hlen : (ops.take k).length = k := by rw [List.length_take]; omega
  have asc' : Asc (n + k) (op :: ops.drop (k + 1)) := by
    have := asc_of_append (l₁ := ops.take k) (l₂ := op :: ops.drop (k + 1)) (hsplit ▸ asc)
    rwa [hlen] at this
  have h1 : ∀ r : Ref sig .tc, r.idx.val ≤ n + k →
      after ops V (Proc.devRef .tc r) = op.result (after (ops.take k) V) (Proc.devRef .tc r) := by
    intro r hr
    conv_lhs => rw [hsplit, after_append, after_cons]
    exact after_of_idx_lt asc'.2 _ r (by omega)
  refine ⟨after (ops.take k) V, h1, fun r hr => ?_⟩
  rw [h1 r (by omega), asc'.1.result_ne _ r (by omega)]

end Idealize.ShloMosaic.StableHlo

end
-- ==== Proof.LibStageEq.lean ====
/-
  Stage equations of a straight-line host program in single-assignment form, one per kind of operation.

  In a list of host operations whose `k`-th operation writes exactly the buffer of index `n + k` (LibStage.lean's
  `Asc`), the final contents of the buffer an operation writes are the operation's function of the FINAL contents of
  its operands, provided the operands have smaller indices (so that no later operation touches them): for a constant
  the constant, for a one-operand operation `f (final x)`, for a two-operand operation `f (final a) (final b)`, for a
  reshape the operand's final contents re-laid. These are `stage` (LibStage.lean) read at the operation's own builder.
-/
import proofs.«139406_j31885837206187_2_alg».proof.Proof.LibStage

noncomputable section

namespace Idealize.ShloMosaic.StableHlo

open TcCoe

variable {τ : Topo} {sig : RefSig} {Val : EltTy → Type}

/-- A constant's buffer ends at the constant. -/
theorem nullary_stage {n : Nat} {ops : List (HloOp τ sig Val)} (asc : Asc n ops) (V : Valuation τ sig Val) (k : Nat)
    (y : Ref sig .tc) (v : y.ty.Contents Val) (hy)
    (hk : ops[k]? = some (nullary (τ := τ) y v hy)) (hyk : y.idx.val = n + k) :
    after ops V (Proc.devRef .tc y) = v := by
  obtain ⟨W, h1, -⟩ := stage asc V k hk
  exact (h1 y (le_of_eq hyk)).trans (nullary_result y v hy W)

/-- A one-operand operation's buffer ends at its function of the operand's final contents. -/
theorem unary_stage {n : Nat} {ops : List (HloOp τ sig Val)} (asc : Asc n ops) (V : Valuation τ sig Val) (k : Nat)
    (x y : Ref sig .tc) (f : x.ty.Contents Val → y.ty.Contents Val) (hx hy)
    (hk : ops[k]? = some (unary (τ := τ) x y f hx hy)) (hyk : y.idx.val = n + k) (hxk : x.idx.val < n + k) :
    after ops V (Proc.devRef .tc y) = f (after ops V (Proc.devRef .tc x)) := by
  obtain ⟨W, h1, h2⟩ := stage asc V k hk
  exact (h1 y (le_of_eq hyk)).trans ((unary_result x y f hx hy W).trans (congrArg f (h2 x hxk)))

/-- A two-operand operation's buffer ends at its function of the operands' final contents. -/
theorem binary_stage {n : Nat} {ops : List (HloOp τ sig Val)} (asc : Asc n ops) (V : Valuation τ sig Val) (k : Nat)
    (a b y : Ref sig .tc) (f : a.ty.Contents Val → b.ty.Contents Val → y.ty.Contents Val) (ha hb hy)
    (hk : ops[k]? = some (binary (τ := τ) a b y f ha hb hy)) (hyk : y.idx.val = n + k)
    (hak : a.idx.val < n + k) (hbk : b.idx.val < n + k) :
    after ops V (Proc.devRef .tc y) = f (after ops V (Proc.devRef .tc a)) (after ops V (Proc.devRef .tc b)) := by
  obtain ⟨W, h1, h2⟩ := stage asc V k hk
  exact (h1 y (le_of_eq hyk)).trans ((binary_result a b y f ha hb hy W).trans (congrArg₂ f (h2 a hak) (h2 b hbk)))

/-- A reshape's buffer ends at the operand's final contents re-laid. -/
theorem reshape_stage {n : Nat} {ops : List (HloOp τ sig Val)} (asc : Asc n ops) (V : Valuation τ sig Val) (k : Nat)
    (x y : Ref sig .tc) (he : x.ty.elt = y.ty.elt) (hn : x.ty.shape.ShapeCasts y.ty.shape) (hx hy)
    (hk : ops[k]? = some (reshape (τ := τ) (Val := Val) x y he hn hx hy)) (hyk : y.idx.val = n + k) (hxk : x.idx.val < n + k) :
    after ops V (Proc.devRef .tc y) = fun i => he ▸ shapeCast y.ty.shape (after ops V (Proc.devRef .tc x)) hn i := by
  obtain ⟨W, h1, h2⟩ := stage asc V k hk
  exact (h1 y (le_of_eq hyk)).trans ((reshape_result x y he hn hx hy W).trans (by rw [h2 x hxk]))

end Idealize.ShloMosaic.StableHlo

end
-- ==== Proof.RefRun.lean ====
/-
  The reference's run, read back: every weakly fair execution of its @main terminates with the three results at
  their stages (RefRead.lean's `val_main_v7`, `val_main_v4`, `val_main_v3`) of the arguments, the arguments unchanged.

  @main is a straight line of 23 host operations in single-assignment form: the `k`-th operation writes the buffer of
  index `3 + k` and reads buffers of smaller index. So the final contents of every buffer are its operation's function
  of its operands' final contents (LibStage.lean, LibStageEq.lean), and, going down the line once, each buffer's final
  contents are its stage: one equation per operation, each from the equations before it.
-/
import proofs.«139406_j31885837206187_2_alg».proof.Proof.RefRead
import proofs.«139406_j31885837206187_2_alg».proof.Proof.LibStageEq
import Idealize.ShloMosaic.Lib.StableHlo.Run

noncomputable section

namespace Cert.ReferenceIdeal.Value

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- @main's 23 operations, in order (a called function's operations stand in its call's place, spelt `TRef.…`). -/
abbrev ops : List (HloOp τ sig (Elt F)) :=
  [ binary main_arg0 main_arg1 main_v0 ((fun l r => Host.dotGeneral dot_S16x2048x64_S16x2048x64_S16x2048x2048_2_2_1_1_0_0 none l r) : (⟨S16x2048x64, .f32⟩ : BufTy).Contents (Elt F) → (⟨S16x2048x64, .f32⟩ : BufTy).Contents (Elt F) → (⟨S16x2048x2048, .f32⟩ : BufTy).Contents (Elt F)),
    nullary main_cst (constant S_ .f32 0x41000000#32),
    unary main_cst main_v1 (broadcastInDim S16x2048x2048 ![] bcast_S_S16x2048x2048 : (⟨S_, .f32⟩ : BufTy).Contents (Elt F) → (⟨S16x2048x2048, .f32⟩ : BufTy).Contents (Elt F)),
    binary main_v0 main_v1 main_v2 (Host.divf : (⟨S16x2048x2048, .f32⟩ : BufTy).Contents (Elt F) → (⟨S16x2048x2048, .f32⟩ : BufTy).Contents (Elt F) → (⟨S16x2048x2048, .f32⟩ : BufTy).Contents (Elt F)),
    TRef.nullary (TRef.of (T := ⟨S_, .f32⟩) main_call0_cst) (constant S_ .f32 0xFF800000#32),
    TRef.binary (TRef.of (T := ⟨S16x2048x2048, .f32⟩) main_v2) (TRef.of (T := ⟨S_, .f32⟩) main_call0_cst) (TRef.of (T := ⟨S16x2048, .f32⟩) main_call0_v0) (fun x v => Host.reduce FloatOps.maximumf x v reducesTo_S16x2048x2048_S16x2048_d2 h_S_),
    TRef.nullary (TRef.of (T := ⟨S_, .f32⟩) main_call0_cst_0) (constant S_ .f32 0xFF800000#32),
    TRef.unary (TRef.of (T := ⟨S_, .f32⟩) main_call0_cst_0) (TRef.of (T := ⟨S16x2048, .f32⟩) main_call0_v1) (broadcastInDim S16x2048 ![] bcast_S_S16x2048),
    TRef.binary (TRef.of (T := ⟨S16x2048, .f32⟩) main_call0_v1) (TRef.of (T := ⟨S16x2048, .f32⟩) main_call0_v0) (TRef.of (T := ⟨S16x2048, .f32⟩) main_call0_v2) maximumf,
    TRef.unary (TRef.of (T := ⟨S16x2048, .f32⟩) main_call0_v2) (TRef.of (T := ⟨S16x2048x1, .f32⟩) main_call0_v3) (broadcastInDim S16x2048x1 ![0, 1] bcast_S16x2048_S16x2048x1_0_1),
    TRef.unary (TRef.of (T := ⟨S16x2048x1, .f32⟩) main_call0_v3) (TRef.of (T := ⟨S16x2048x2048, .f32⟩) main_call0_v4) (broadcastInDim S16x2048x2048 ![0, 1, 2] bcast_S16x2048x1_S16x2048x2048_0_1_2),
    TRef.binary (TRef.of (T := ⟨S16x2048x2048, .f32⟩) main_v2) (TRef.of (T := ⟨S16x2048x2048, .f32⟩) main_call0_v4) (TRef.of (T := ⟨S16x2048x2048, .f32⟩) main_call0_v5) subf,
    TRef.unary (TRef.of (T := ⟨S16x2048x2048, .f32⟩) main_call0_v5) (TRef.of (T := ⟨S16x2048x2048, .f32⟩) main_call0_v6) Host.exp,
    TRef.nullary (TRef.of (T := ⟨S_, .f32⟩) main_call0_cst_1) (constant S_ .f32 0x00000000#32),
    TRef.binary (TRef.of (T := ⟨S16x2048x2048, .f32⟩) main_call0_v6) (TRef.of (T := ⟨S_, .f32⟩) main_call0_cst_1) (TRef.of (T := ⟨S16x2048, .f32⟩) main_call0_v7) (fun x v => Host.reduceAdd x v reducesTo_S16x2048x2048_S16x2048_d2 h_S_),
    TRef.unary (TRef.of (T := ⟨S16x2048, .f32⟩) main_call0_v7) (TRef.of (T := ⟨S16x2048x1, .f32⟩) main_call0_v8) (broadcastInDim S16x2048x1 ![0, 1] bcast_S16x2048_S16x2048x1_0_1),
    TRef.unary (TRef.of (T := ⟨S16x2048x1, .f32⟩) main_call0_v8) (TRef.of (T := ⟨S16x2048x1, .f32⟩) main_call0_v9) Host.log,
    TRef.unary (TRef.of (T := ⟨S16x2048x1, .f32⟩) main_call0_v9) (TRef.of (T := ⟨S16x2048x2048, .f32⟩) main_call0_v10) (broadcastInDim S16x2048x2048 ![0, 1, 2] bcast_S16x2048x1_S16x2048x2048_0_1_2),
    TRef.binary (TRef.of (T := ⟨S16x2048x2048, .f32⟩) main_call0_v5) (TRef.of (T := ⟨S16x2048x2048, .f32⟩) main_call0_v10) (TRef.of (T := ⟨S16x2048x2048, .f32⟩) main_v3) subf,
    unary main_v3 main_v4 (Host.exp : (⟨S16x2048x2048, .f32⟩ : BufTy).Contents (Elt F) → (⟨S16x2048x2048, .f32⟩ : BufTy).Contents (Elt F)),
    binary main_v4 main_arg2 main_v5 ((fun l r => Host.dotGeneral dot_S16x2048x2048_S16x2048x64_S16x2048x64_2_1_1_2_0_0 none l r) : (⟨S16x2048x2048, .f32⟩ : BufTy).Contents (Elt F) → (⟨S16x2048x64, .f32⟩ : BufTy).Contents (Elt F) → (⟨S16x2048x64, .f32⟩ : BufTy).Contents (Elt F)),
    unary main_v5 main_v6 ((transpose S2048x16x64 [1, 0, 2] · transposes_S16x2048x64_S2048x16x64_1_0_2) : (⟨S16x2048x64, .f32⟩ : BufTy).Contents (Elt F) → (⟨S2048x16x64, .f32⟩ : BufTy).Contents (Elt F)),
    reshape main_v6 main_v7 rfl shapeCasts_S2048x16x64_S2048x1024 ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., binary_bufs_sub .., unary_bufs_sub .., reshape_bufs_sub ..⟩

/-- The `k`-th operation writes the buffer of index `3 + k` only. -/
theorem asc : Asc 3 (ops : List (HloOp τ sig (Elt F))) :=
  ⟨binary_writesAt _ _ _ _ _ _ _, nullary_writesAt _ _ _, unary_writesAt _ _ _ _ _, binary_writesAt _ _ _ _ _ _ _, nullary_writesAt _ _ _, binary_writesAt _ _ _ _ _ _ _, nullary_writesAt _ _ _, unary_writesAt _ _ _ _ _, binary_writesAt _ _ _ _ _ _ _, unary_writesAt _ _ _ _ _, unary_writesAt _ _ _ _ _, binary_writesAt _ _ _ _ _ _ _, unary_writesAt _ _ _ _ _, nullary_writesAt _ _ _, binary_writesAt _ _ _ _ _ _ _, unary_writesAt _ _ _ _ _, unary_writesAt _ _ _ _ _, unary_writesAt _ _ _ _ _, binary_writesAt _ _ _ _ _ _ _, unary_writesAt _ _ _ _ _, binary_writesAt _ _ _ _ _ _ _, unary_writesAt _ _ _ _ _, reshape_writesAt _ _ _ _ _ _, trivial⟩

section Stages

variable (V : Valuation τ sig (Elt F))

/-! The arguments are written by no operation. -/

theorem fin_arg0 : after ops V (Proc.devRef .tc main_arg0) = V (Proc.devRef .tc main_arg0) := after_of_idx_lt asc V main_arg0 (by decide)
theorem fin_arg1 : after ops V (Proc.devRef .tc main_arg1) = V (Proc.devRef .tc main_arg1) := after_of_idx_lt asc V main_arg1 (by decide)
theorem fin_arg2 : after ops V (Proc.devRef .tc main_arg2) = V (Proc.devRef .tc main_arg2) := after_of_idx_lt asc V main_arg2 (by decide)

/-! Each buffer's final contents are its stage of the arguments, in the program's order. -/

theorem s_v0 : after ops V (Proc.devRef .tc main_v0) = val_main_v0 (V (Proc.devRef .tc main_arg0)) (V (Proc.devRef .tc main_arg1)) := by
  refine (binary_stage asc V 0 main_arg0 main_arg1 main_v0 _ _ _ _ rfl rfl (by decide) (by decide)).trans ?_
  rw [fin_arg0, fin_arg1]; rfl

theorem s_cst : after ops V (Proc.devRef .tc main_cst) = val_main_cst (F := F) :=
  nullary_stage asc V 1 main_cst _ _ rfl rfl

theorem s_v1 : after ops V (Proc.devRef .tc main_v1) = val_main_v1 (F := F) := by
  refine (unary_stage asc V 2 main_cst main_v1 _ _ _ rfl rfl (by decide)).trans ?_
  rw [s_cst]; rfl

theorem s_v2 : after ops V (Proc.devRef .tc main_v2) = val_main_v2 (V (Proc.devRef .tc main_arg0)) (V (Proc.devRef .tc main_arg1)) := by
  refine (binary_stage asc V 3 main_v0 main_v1 main_v2 _ _ _ _ rfl rfl (by decide) (by decide)).trans ?_
  rw [s_v0, s_v1]; rfl

theorem s_c_cst : after ops V (Proc.devRef .tc main_call0_cst) = val_main_call0_cst (F := F) :=
  nullary_stage asc V 4 main_call0_cst _ _ rfl rfl

theorem s_c_v0 : after ops V (Proc.devRef .tc main_call0_v0) = val_main_call0_v0 (V (Proc.devRef .tc main_arg0)) (V (Proc.devRef .tc main_arg1)) := by
  refine (binary_stage asc V 5 main_v2 main_call0_cst main_call0_v0 _ _ _ _ rfl rfl (by decide) (by decide)).trans ?_
  rw [s_v2, s_c_cst]
  simp only [cast_eq]
  unfold val_main_call0_v0
  exact Eq.refl _

theorem s_c_cst_0 : after ops V (Proc.devRef .tc main_call0_cst_0) = val_main_call0_cst_0 (F := F) :=
  nullary_stage asc V 6 main_call0_cst_0 _ _ rfl rfl

theorem s_c_v1 : after ops V (Proc.devRef .tc main_call0_v1) = val_main_call0_v1 (F := F) := by
  refine (unary_stage asc V 7 main_call0_cst_0 main_call0_v1 _ _ _ rfl rfl (by decide)).trans ?_
  rw [s_c_cst_0]; rfl

/-- A vector of `[16, 2048]` read at the type of the buffer that holds it is the vector itself (three buffers of the
    row maxima: the broadcast of minus infinity, the reduced maxima, their maximum). -/
theorem ob_c_v1 (Z : (⟨S16x2048, .f32⟩ : BufTy).Contents (Elt F)) : (TRef.of (T := ⟨S16x2048, .f32⟩) main_call0_v1 : TRef sig _).ofBuf Z = Z := rfl
theorem ob_c_v0 (Z : (⟨S16x2048, .f32⟩ : BufTy).Contents (Elt F)) : (TRef.of (T := ⟨S16x2048, .f32⟩) main_call0_v0 : TRef sig _).ofBuf Z = Z := rfl
theorem tb_c_v2 (Z : (⟨S16x2048, .f32⟩ : BufTy).Contents (Elt F)) : (TRef.of (T := ⟨S16x2048, .f32⟩) main_call0_v2 : TRef sig _).toBuf Z = Z := rfl

theorem s_c_v2 : after ops V (Proc.devRef .tc main_call0_v2) = val_main_call0_v2 (V (Proc.devRef .tc main_arg0)) (V (Proc.devRef .tc main_arg1)) := by
  refine (binary_stage asc V 8 main_call0_v1 main_call0_v0 main_call0_v2 _ _ _ _ rfl rfl (by decide) (by decide)).trans ?_
  rw [s_c_v1, s_c_v0, ob_c_v1, ob_c_v0, tb_c_v2]
  unfold val_main_call0_v2
  exact Eq.refl _

theorem s_c_v3 : after ops V (Proc.devRef .tc main_call0_v3) = val_main_call0_v3 (V (Proc.devRef .tc main_arg0)) (V (Proc.devRef .tc main_arg1)) := by
  refine (unary_stage asc V 9 main_call0_v2 main_call0_v3 _ _ _ rfl rfl (by decide)).trans ?_
  rw [s_c_v2]; rfl

theorem s_c_v4 : after ops V (Proc.devRef .tc main_call0_v4) = val_main_call0_v4 (V (Proc.devRef .tc main_arg0)) (V (Proc.devRef .tc main_arg1)) := by
  refine (unary_stage asc V 10 main_call0_v3 main_call0_v4 _ _ _ rfl rfl (by decide)).trans ?_
  rw [s_c_v3]; rfl

theorem s_c_v5 : after ops V (Proc.devRef .tc main_call0_v5) = val_main_call0_v5 (V (Proc.devRef .tc main_arg0)) (V (Proc.devRef .tc main_arg1)) := by
  refine (binary_stage asc V 11 main_v2 main_call0_v4 main_call0_v5 _ _ _ _ rfl rfl (by decide) (by decide)).trans ?_
  rw [s_v2, s_c_v4]; rfl

theorem s_c_v6 : after ops V (Proc.devRef .tc main_call0_v6) = val_main_call0_v6 (V (Proc.devRef .tc main_arg0)) (V (Proc.devRef .tc main_arg1)) := by
  refine (unary_stage asc V 12 main_call0_v5 main_call0_v6 _ _ _ rfl rfl (by decide)).trans ?_
  rw [s_c_v5]; rfl

theorem s_c_cst_1 : after ops V (Proc.devRef .tc main_call0_cst_1) = val_main_call0_cst_1 (F := F) :=
  nullary_stage asc V 13 main_call0_cst_1 _ _ rfl rfl

theorem s_c_v7 : after ops V (Proc.devRef .tc main_call0_v7) = val_main_call0_v7 (V (Proc.devRef .tc main_arg0)) (V (Proc.devRef .tc main_arg1)) := by
  refine (binary_stage asc V 14 main_call0_v6 main_call0_cst_1 main_call0_v7 _ _ _ _ rfl rfl (by decide) (by decide)).trans ?_
  rw [s_c_v6, s_c_cst_1]; rfl

theorem s_c_v8 : after ops V (Proc.devRef .tc main_call0_v8) = val_main_call0_v8 (V (Proc.devRef .tc main_arg0)) (V (Proc.devRef .tc main_arg1)) := by
  refine (unary_stage asc V 15 main_call0_v7 main_call0_v8 _ _ _ rfl rfl (by decide)).trans ?_
  rw [s_c_v7]; rfl

theorem s_c_v9 : after ops V (Proc.devRef .tc main_call0_v9) = val_main_call0_v9 (V (Proc.devRef .tc main_arg0)) (V (Proc.devRef .tc main_arg1)) := by
  refine (unary_stage asc V 16 main_call0_v8 main_call0_v9 _ _ _ rfl rfl (by decide)).trans ?_
  rw [s_c_v8]; rfl

theorem s_c_v10 : after ops V (Proc.devRef .tc main_call0_v10) = val_main_call0_v10 (V (Proc.devRef .tc main_arg0)) (V (Proc.devRef .tc main_arg1)) := by
  refine (unary_stage asc V 17 main_call0_v9 main_call0_v10 _ _ _ rfl rfl (by decide)).trans ?_
  rw [s_c_v9]; rfl

theorem s_v3 : after ops V (Proc.devRef .tc main_v3) = val_main_v3 (V (Proc.devRef .tc main_arg0)) (V (Proc.devRef .tc main_arg1)) := by
  refine (binary_stage asc V 18 main_call0_v5 main_call0_v10 main_v3 _ _ _ _ rfl rfl (by decide) (by decide)).trans ?_
  rw [s_c_v5, s_c_v10]; rfl

theorem s_v4 : after ops V (Proc.devRef .tc main_v4) = val_main_v4 (V (Proc.devRef .tc main_arg0)) (V (Proc.devRef .tc main_arg1)) := by
  refine (unary_stage asc V 19 main_v3 main_v4 _ _ _ rfl rfl (by decide)).trans ?_
  rw [s_v3]; rfl

theorem s_v5 : after ops V (Proc.devRef .tc main_v5) = val_main_v5 (V (Proc.devRef .tc main_arg0)) (V (Proc.devRef .tc main_arg1)) (V (Proc.devRef .tc main_arg2)) := by
  refine (binary_stage asc V 20 main_v4 main_arg2 main_v5 _ _ _ _ rfl rfl (by decide) (by decide)).trans ?_
  rw [s_v4, fin_arg2]; rfl

theorem s_v6 : after ops V (Proc.devRef .tc main_v6) = val_main_v6 (V (Proc.devRef .tc main_arg0)) (V (Proc.devRef .tc main_arg1)) (V (Proc.devRef .tc main_arg2)) := by
  refine (unary_stage asc V 21 main_v5 main_v6 _ _ _ rfl rfl (by decide)).trans ?_
  rw [s_v5]; rfl

theorem s_v7 : after ops V (Proc.devRef .tc main_v7) = val_main_v7 (V (Proc.devRef .tc main_arg0)) (V (Proc.devRef .tc main_arg1)) (V (Proc.devRef .tc main_arg2)) := by
  refine (reshape_stage asc V 22 main_v6 main_v7 _ _ _ _ rfl rfl (by decide)).trans ?_
  rw [s_v6]; rfl

end Stages

/-- On every device, for any float values, from any memory with zero counters: every weakly fair execution of @main
    terminates with each result at its stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v7) = val_main_v7 (m ((c.tc : Thread nD τ).loc main_arg0)) (m ((c.tc : Thread nD τ).loc main_arg1)) (m ((c.tc : Thread nD τ).loc main_arg2))
      ∧ r.2.mem ((c.tc : Thread nD τ).loc main_v4) = val_main_v4 (m ((c.tc : Thread nD τ).loc main_arg0)) (m ((c.tc : Thread nD τ).loc main_arg1))
      ∧ r.2.mem ((c.tc : Thread nD τ).loc main_v3) = val_main_v3 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v7).trans (s_v7 (launchContents m c)),
      (h c main_v4).trans (s_v4 (launchContents m c)),
      (h c main_v3).trans (s_v3 (launchContents m c)),
      (h c main_arg0).trans (fin_arg0 (launchContents m c)),
      (h c main_arg1).trans (fin_arg1 (launchContents m c)),
      (h c main_arg2).trans (fin_arg2 (launchContents m c))⟩)
    (run_seq scopedRefs_eq scopedSems_eq defs main (fun _ => ops) main_eq (fun _ => ops_sub) m ρ)

end Cert.ReferenceIdeal.Value

end
-- ==== Proof.LibFinite.lean ====
/-
  GENERAL LEMMAS: a printed "is finite" test read back over the extended reals. At the ideal instance a float is an
  extended real, `|x|` is `max x (-x)`, a comparison is the linear order's, and the word 0x7F800000 denotes `+∞`. So the
  one-bit word of `|x| < +∞` being 1 says that `x` is a real number. Nothing here mentions a program.
-/
import Idealize.ShloMosaic.PureOps.Ideal

noncomputable section

namespace Cert.Lib.Finite

open Idealize.ShloMosaic

/-- The scalar shape has one index. -/
instance : Subsingleton (⟨0, ![]⟩ : Shape).Idx := ⟨fun a b => funext fun d => d.elim0⟩

/-- The word 0x7F800000 denotes `+∞`. -/
theorem ofBits_inf : Ideal.ofBits .f32 0x7F800000#32 = (⊤ : EReal) := by
  simp [Ideal.ofBits, Ideal.ieee]

/-- An extended real whose absolute value `max x (-x)` is below `+∞` is a real: `+∞` is its own absolute value, and
    `-∞`'s is `+∞` too. -/
theorem real_of_abs_lt_top (x : EReal) (h : max x (-x) < ⊤) : ∃ r : ℝ, x = (r : EReal) := by
  induction x using EReal.rec with
  | bot => simp at h
  | coe r => exact ⟨r, rfl⟩
  | top => simp at h

/-- The comparison `|x| < +∞` read back from its one-bit word: if it is 1, `x` is a real. -/
theorem real_of_cmp (x : EReal)
    (h : Ideal.cmp .olt (max x (-x)) (Ideal.ofBits .f32 0x7F800000#32) = 1#1) : ∃ r : ℝ, x = (r : EReal) := by
  refine real_of_abs_lt_top x ?_
  by_contra hn
  rw [ofBits_inf] at h
  simp [Ideal.cmp, hn] at h

end Cert.Lib.Finite

end
-- ==== Proof.Finite.lean ====
/-
  The precondition read back: where `finite_inputs` holds, every entry of the three arguments is a real number.

  The predicate is the conjunction of three `jnp.all (|x| < +∞)`; at the ideal instance `|x| < +∞` says that the
  extended real `x` is neither infinity, that is, a real.
-/
import proofs.«139406_j31885837206187_2_alg».proof.Pre_finite_inputs
import proofs.«139406_j31885837206187_2_alg».proof.Proof.LibFinite
import Idealize.ShloMosaic.Lib.ReduceAll
import Idealize.ShloMosaic.Lib.ValueIdx

noncomputable section

namespace Cert.Pre_finite_inputs.Real

open Idealize.ShloMosaic Cert.Pre_finite_inputs Cert.Lib.Finite

/-- Under the precondition every entry of `q`, of `k` and of `v` is a real number. -/
theorem real_of_pre [Facts] (a0 a1 a2 : FVec Ideal S16x2048x64 .f32) (h : fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ValueIdx.ix0
  dsimp only [fn] at h0
  obtain ⟨h01, h2⟩ := IntOp.andi_eq_one.1 h0
  obtain ⟨h0', h1'⟩ := IntOp.andi_eq_one.1 h01
  refine ⟨fun i => ?_, fun i => ?_, fun i => ?_⟩
  · exact real_of_cmp (a0 i) (Host.reduce_andi_all _ _ _ _ _ h0' i)
  · exact real_of_cmp (a1 i) (Host.reduce_andi_all _ _ _ _ _ h1' i)
  · exact real_of_cmp (a2 i) (Host.reduce_andi_all _ _ _ _ _ h2 i)

end Cert.Pre_finite_inputs.Real

end
-- ==== Proof.lean ====
/-
  Scaled dot-product attention, kernel against reference, over the extended reals.

  Both programs compute, for `q k v : [16, 2048, 64]`, the scores `s (b, r, j) = (∑ d, q (b, r, d) · k (b, j, d)) / 8` (the
  kernel multiplies by the word of one eighth, the reference divides by the word of eight: one value on every extended
  real), the log-weights `(s - max s) - log ∑ exp (s - max s)` along the key axis, the weights, and the context
  `∑ j, weight (b, r, j) · v (b, j, d)`, returned with heads and positions exchanged and the last two axes merged. The
  log-weights are the same term on both sides. The weights differ in form: the kernel's are
  `exp (s - max s) · (1 / ∑ exp (s - max s))`, the reference's the exponential of the log-weights; they agree where
  `q` and `k` are real — which the precondition gives — because then the maximum is real, the sum is a positive
  real `S`, and `exp (a - log S) = exp a · (1 / S)` on the reals. The contexts are then equal term by term.

  The kernel's results are read off its generated frame run (Block.lean: the body's values at an index; Arrays.lean:
  each output array after the run; KernelRun.lean: the host operations after the region and the run). The reference's
  are its run (RefRun.lean: each buffer's final contents are its stage) read one operation at a time (RefRead.lean,
  RefValue.lean). The law is in Softmax.lean and Spec.lean, the precondition's
  reading in Finite.lean.
-/
import proofs.«139406_j31885837206187_2_alg».proof.Defs
import proofs.«139406_j31885837206187_2_alg».proof.Proof.Gen.Kernel
import proofs.«139406_j31885837206187_2_alg».proof.Proof.Gen.Kernel.Frame
import proofs.«139406_j31885837206187_2_alg».proof.Proof.Gen.KernelIdeal
import proofs.«139406_j31885837206187_2_alg».proof.Proof.Gen.KernelIdeal.Frame
import proofs.«139406_j31885837206187_2_alg».proof.Proof.Gen.ReferenceIdeal
import proofs.«139406_j31885837206187_2_alg».proof.Proof.Gen.Pre_finite_inputs
import proofs.«139406_j31885837206187_2_alg».proof.Proof.KernelRun
import proofs.«139406_j31885837206187_2_alg».proof.Proof.RefValue
import proofs.«139406_j31885837206187_2_alg».proof.Proof.RefRun
import proofs.«139406_j31885837206187_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The two idealized programs, from memories agreeing on the arguments, end with equal results: the kernel's run names
    its results as the context (transposed and reshaped), the weights `attn` and the log-weights `logAttn` of the
    arguments; the reference's results are the same functions, the weights and the context where `q` and `k` are real. -/
theorem algebraic : Cert.algebraic_KernelIdeal_ReferenceIdeal := by
  intro m ρ m' ρ' hpre hagree
  refine ⟨_, _, _, Cert.KernelIdeal.KernelRun.run m ρ, ?_⟩
  refine (θ_run Cert.ReferenceIdeal.defs _ _).mono (fun _ h c => ?_) (Cert.ReferenceIdeal.Value.run (F := Ideal) m' ρ')
  obtain ⟨hq, hk, -⟩ := Cert.Pre_finite_inputs.Real.real_of_pre _ _ _ (hpre c)
  obtain ⟨a0, a1, a2⟩ := hagree c
  obtain ⟨h7, h4, h3, hr⟩ := h c
  refine ⟨h7.trans ?_, h4.trans ?_, h3.trans ?_, hr⟩
  · rw [a0, a1, a2]
    exact Cert.ReferenceIdeal.RefValue.main_v7_eq _ _ _ hq hk
  · rw [a0, a1]
    exact Cert.ReferenceIdeal.RefValue.main_v4_eq _ _ hq hk
  · rw [a0, a1]
    exact Cert.ReferenceIdeal.RefValue.main_v3_eq _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
